-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x4096x3 : Shape := ⟨3, ![4096, 4096, 3]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x4096x3 : S_.BroadcastsInDim S4096x4096x3 (![] : Fin 0 → Fin S4096x4096x3.rank)
  reducesTo_S4096x4096x3_S_d0_1_2 : S4096x4096x3.ReducesTo [0, 1, 2] S_

variable [Facts]

def fn {F : FTy → Type} [FloatOps F] (main_arg0 : FVec F S4096x4096 .f32) (main_arg1 : FVec F S4096x4096x3 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096x3 .f32 := Host.absf main_arg1
  let main_cst_0 : FVec F S_ .f32 := constant S_ .f32 0x7F800000#32
  let main_v5 : FVec F S4096x4096x3 .f32 := broadcastInDim S4096x4096x3 ![] bcast_S_S4096x4096x3 main_cst_0
  let main_v6 : IVec S4096x4096x3 1 := cmpf .olt main_v4 main_v5
  let main_c_1 : IVec S_ 1 := constantI S_ 1 1#1
  let main_v7 : IVec S_ 1 := (fun x v => Host.reduce IntOp.andi x v reducesTo_S4096x4096x3_S_d0_1_2 h_S_) main_v6 main_c_1
  let main_v8 : IVec S_ 1 := andi main_v3 main_v7
  main_v8
-- ==== Kernel.lean ====
abbrev S4096x4096 : Shape := ⟨2, ![4096, 4096]⟩
abbrev S4096x4096x3 : Shape := ⟨3, ![4096, 4096, 3]⟩
abbrev S_ : Shape := ⟨0, ![]⟩
abbrev S2x8x128 : Shape := ⟨3, ![2, 8, 128]⟩
abbrev S64x4096 : Shape := ⟨2, ![64, 4096]⟩
abbrev S8x4096 : Shape := ⟨2, ![8, 4096]⟩
abbrev S1x8x128 : Shape := ⟨3, ![1, 8, 128]⟩
abbrev S8x128 : Shape := ⟨2, ![8, 128]⟩
abbrev S1x4096 : Shape := ⟨2, ![1, 4096]⟩
abbrev S63x4096 : Shape := ⟨2, ![63, 4096]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096x3, .f32⟩
  | .hbm, ⟨2, _⟩ => ⟨S_, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S2x8x128, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S_, .f32⟩
  | .local _ .vmem, ⟨0, _⟩ => ⟨S64x4096, .f32⟩
  | .local _ .vmem, ⟨1, _⟩ => ⟨S64x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S64x4096, .f32⟩
  | .local _ .vmem, ⟨7, _⟩ => ⟨S64x4096, .f32⟩
  | .local _ .vmem, ⟨8, _⟩ => ⟨S8x4096, .f32⟩
  | .local _ .vmem, ⟨9, _⟩ => ⟨S8x4096, .f32⟩
  | .local _ .vmem, ⟨10, _⟩ => ⟨S8x4096, .f32⟩
  | .local _ .vmem, ⟨11, _⟩ => ⟨S8x4096, .f32⟩
  | .local _ .vmem, ⟨12, _⟩ => ⟨S1x8x128, .f32⟩
  | .local _ .vmem, ⟨13, _⟩ => ⟨S1x8x128, .f32⟩
  | .local _ .vmem, ⟨14, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v100 : BitVec 1 := Scalar.cmpi .eq arg1 c31_i32
  let v101 : BitVec 32 := Scalar.extui v100
  let c0_i32_40 : BitVec 32 := 0#32
  let v102 : BitVec 1 := Scalar.cmpi .ne v101 c0_i32_40
  v102

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.addi v1 c1_i32
  let c8_i32 : BitVec 32 := 8#32
  let v3 : BitVec 32 := Scalar.muli v2 c8_i32
  let c511_i32 : BitVec 32 := 511#32
  let v4 : BitVec 32 := Scalar.minsi v3 c511_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.addi v1 c1_i32
  let c8_i32 : BitVec 32 := 8#32
  let v3 : BitVec 32 := Scalar.muli v2 c8_i32
  let c511_i32 : BitVec 32 := 511#32
  let v4 : BitVec 32 := Scalar.minsi v3 c511_i32
  let c0_i32 : BitVec 32 := 0#32
  let c0_i32_0 : BitVec 32 := 0#32
  ![v4.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x4096x3_S4096x4096_d2 : S4096x4096x3.ReducesTo [2] S4096x4096
  h_S_ : 0 < S_.numel
  bcast_S_S4096x4096 : S_.BroadcastsInDim S4096x4096 (![] : Fin 0 → Fin S4096x4096.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S64x4096_S64x4096_0_0 : ∀ a, (![0, 0] : Fin 2 → Nat) a + S64x4096.size a ≤ S64x4096.size a
  h_S64x4096 : 0 < S64x4096.numel
  inb_S8x4096_S8x4096_0_0 : ∀ a, (![0, 0] : Fin 2 → Nat) a + S8x4096.size a ≤ S8x4096.size a
  h_S8x4096 : 0 < S8x4096.numel
  slices_S8x4096_o7_0_S1x4096 : S8x4096.Slices ![7, 0] S1x4096
  slices_S8x4096_o0_0_S1x4096 : S8x4096.Slices ![0, 0] S1x4096
  slices_S64x4096_o0_0_S63x4096 : S64x4096.Slices ![0, 0] S63x4096
  concatenates_S1x4096_S63x4096_S64x4096_d0 : Shape.Concatenates [S1x4096, S63x4096] S64x4096 0
  slices_S64x4096_o1_0_S63x4096 : S64x4096.Slices ![1, 0] S63x4096
  concatenates_S63x4096_S1x4096_S64x4096_d0 : Shape.Concatenates [S63x4096, S1x4096] S64x4096 0
  rotates_S64x4096_d1 : S64x4096.Rotates 1 none
  iota_S64x4096_d1_w32 : S64x4096.Iotas .tc 32 [1]
  shapeCasts_S64x4096_S64x4096 : S64x4096.ShapeCasts S64x4096
  shapeCasts_S8x4096_S8x4096 : S8x4096.ShapeCasts S8x4096
  reduces_S64x4096_S64 : S64x4096.Reduces [1] S64
  shapeCasts_S64_S64x1 : S64.ShapeCasts S64x1
  reduces_S64x1_S1 : S64x1.Reduces [0] S1
  shapeCasts_S1_S1x1 : S1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S4096x4096.size a
  hwx0_0 : ∀ i : grid0.Coords, EltTy.bits .f32 = 32 ∨ (Rect.block (s := S4096x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S4096x4096.size a
  hwx0_1 : ∀ i : grid0.Coords, EltTy.bits .f32 = 32 ∨ (Rect.block (s := S4096x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S4096x4096.size a
  hwx0_2 : ∀ i : grid0.Coords, EltTy.bits .f32 = 32 ∨ (Rect.block (s := S4096x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S4096x4096.size a
  hwx0_3 : ∀ i : grid0.Coords, EltTy.bits .f32 = 32 ∨ (Rect.block (s := S4096x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x4096.size a ≤ S4096x4096.size a
  hwx0_4 : ∀ i : grid0.Coords, EltTy.bits .f32 = 32 ∨ (Rect.block (s := S4096x4096) S8x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x4096.size a ≤ S4096x4096.size a
  hwx0_5 : ∀ i : grid0.Coords, EltTy.bits .f32 = 32 ∨ (Rect.block (s := S4096x4096) S8x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x4096x3 : Shape := ⟨3, ![4096, 4096, 3]⟩
abbrev S_ : Shape := ⟨0, ![]⟩
abbrev S4096x4098 : Shape := ⟨2, ![4096, 4098]⟩
abbrev S4098x4096 : Shape := ⟨2, ![4098, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096x3, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .i32⟩
  | .hbm, ⟨12, _⟩ => ⟨S_, .f32⟩
  | .hbm, ⟨13, _⟩ => ⟨S4096x4098, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S_, .f32⟩
  | .hbm, ⟨19, _⟩ => ⟨S4098x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .i32⟩
  | .hbm, ⟨32, _⟩ => ⟨S_, .f32⟩
  | .hbm, ⟨33, _⟩ => ⟨S4096x4098, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .i32⟩
  | .hbm, ⟨38, _⟩ => ⟨S_, .f32⟩
  | .hbm, ⟨39, _⟩ => ⟨S4098x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_call3_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_call4_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  pads_S4096x4096_S4096x4098_000_110 : S4096x4096.Pads (![0, 1] : Fin 2 → Nat) ![0, 1] ![0, 0] S4096x4098
  h_S_ : 0 < S_.numel
  slices_S4096x4098_S4096x4096_0_2 : S4096x4098.Slices ![0, 2] S4096x4096
  slices_S4096x4098_S4096x4096_0_0 : S4096x4098.Slices ![0, 0] S4096x4096
  pads_S4096x4096_S4098x4096_110_000 : S4096x4096.Pads (![1, 0] : Fin 2 → Nat) ![1, 0] ![0, 0] S4098x4096
  slices_S4098x4096_S4096x4096_0_0 : S4098x4096.Slices ![0, 0] S4096x4096
  slices_S4098x4096_S4096x4096_2_0 : S4098x4096.Slices ![2, 0] S4096x4096
  reducesTo_S4096x4096x3_S4096x4096_d2 : S4096x4096x3.ReducesTo [2] S4096x4096
  reducesTo_S4096x4096_S_d0_1 : S4096x4096.ReducesTo [0, 1] S_

variable [Facts₀]

class Facts : Prop extends Facts₀ where

variable [Facts]
-- ==== Proof.PointK.lean ====
import proofs.«126209_j52080773431332_2_alg».proof.Proof.Gen.Kernel.Skeleton

/-! # One grid point's arithmetic

The body at a grid point reads six blocks — 64 rows of the map with the 8-row blocks holding the row above and the row
below, and the same three of the guide — and adds their 64 × 4096 pixel terms, summed along each row and then down the
rows, to every entry of the 8 × 128 accumulator. -/

noncomputable section

namespace Cert.Kernel.Hand

open Cert.Kernel Cert.Kernel.Gen
open Idealize.ShloMosaic

variable {F : FTy → Type} [FloatOps F]

/-- The block's number among the 64 blocks of 64 rows, as the body computes it from the point's coordinates. -/
def blockWord (i : grid0.Coords) : BitVec 32 :=
  Scalar.addi (Scalar.muli (BitVec.ofNat 32 (i 0).val) 32#32) (BitVec.ofNat 32 (i 1).val)
/-- Whether it is the first block (no row above), -/
def topFlag (i : grid0.Coords) : BitVec 1 := Scalar.cmpi .eq (blockWord i) 0#32
/-- or the last (no row below). -/
def lastFlag (i : grid0.Coords) : BitVec 1 := Scalar.cmpi .eq (blockWord i) 63#32

/-- The accumulator after the body at a point, from the six input blocks and the accumulator before. -/
def accNew (i : grid0.Coords) (x0 : Vec F S64x4096 .f32) (x1 x2 : Vec F S8x4096 .f32) (x3 : Vec F S64x4096 .f32)
    (x4 x5 : Vec F S8x4096 .f32) (s : Vec F S8x128 .f32) : FVec F S8x128 .f32 :=
  k0_pay1 (k0_pay7 (k0_pay4 x0) (k0_pay5 i x0 x1 x2) (k0_pay6 x0)) (k0_pay9 (topFlag i) (lastFlag i) x3 x4 x5)
    (k0_pay10 x3) (k0_pay11) (k0_pay12 x3) (k0_pay13 (F := F)) s

end Cert.Kernel.Hand

end
-- ==== Proof.BodyRunK.lean ====
import proofs.«126209_j52080773431332_2_alg».proof.Proof.PointK
import proofs.«126209_j52080773431332_2_alg».proof.Proof.Gen.Kernel.Launch
import Idealize.ShloMosaic.Lib.Pipeline.Kit
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first branch is taken at the first step of a half: it zeroes the accumulator. -/
abbrev cond0 (i : grid0.Coords) : Prop := (Scalar.cmpi .ne (Scalar.extui (Scalar.cmpi .eq (BitVec.ofNat 32 (i 1).val) 0#32)) 0#32) = 1#1
/-- Its second at the last step of a half: it copies the accumulator out. -/
abbrev cond1 (i : grid0.Coords) : Prop := k0_cond2 i = 1#1

/-- The origin of a rank-2 block, however its zeros are spelt. -/
theorem hz2 : (![0, 0] : Fin 2 → ℕ) = fun _ => 0 := by funext a; match a with | ⟨0, _⟩ => rfl | ⟨1, _⟩ => rfl
/-- The origin of a rank-3 block. -/
theorem hz3 : (![0, 0, 0] : Fin 3 → ℕ) = fun _ => 0 := by funext a; match a with | ⟨0, _⟩ => rfl | ⟨1, _⟩ => rfl | ⟨2, _⟩ => rfl

set_option maxHeartbeats 1000000 in
/-- A step in the middle of a half: neither branch is taken. From the six input blocks and the accumulator at `s`, the
    body runs to its end leaving the inputs and the idle output block as they were and the accumulator at `accNew`. -/
theorem bodyMid (c : Dev nD) (i : grid0.Coords) (arg2 : Memref sig .tc .vmem S64x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S64x4096 .f32) (harg5 : arg5.IsWhole) (arg6 : Memref sig .tc .vmem S8x4096 .f32) (harg6 : arg6.IsWhole) (arg7 : Memref sig .tc .vmem S8x4096 .f32) (harg7 : arg7.IsWhole) (arg8 : Memref sig .tc .vmem S1x8x128 .f32) (harg8 : arg8.IsWhole) (arg9 : Memref sig .tc .vmem S8x128 .f32) (harg9 : arg9.IsWhole)
    (hc0 : ¬cond0 i) (hc1 : ¬cond1 i) (x0 : Vec F S64x4096 .f32) (x1 x2 : Vec F S8x4096 .f32) (x3 : Vec F S64x4096 .f32) (x4 x5 : Vec F S8x4096 .f32)
    (xo : Vec F S1x8x128 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (accNew i x0 x1 x2 x3 x4 x5 s)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, Hs⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfo; obtain rfl := harg9.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [Ho]
  · iexists _; isplitr
    · ipureintro; exact harg8.read_unread _
    · iexact Ho
  iexists _; isplitr; swap; · iexact Hs
  ipureintro
  sl_unfold_words
  rw [View.read_writes_eq_canon _ _ _ (fun y => ⟨_, List.mem_cons_self, View.mem_set_unit_zero (S := S8x128) hz2 Facts₀.inb_S8x128_S8x128_0_0 y⟩), View.canon_cons_unit_zero hz2]
  simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
  rfl

set_option maxHeartbeats 1000000 in
/-- The first step of a half: the first branch zeroes the accumulator, whatever it held; the body then leaves it at
    `accNew` of the zero vector. -/
theorem bodyFirst (c : Dev nD) (i : grid0.Coords) (arg2 : Memref sig .tc .vmem S64x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S64x4096 .f32) (harg5 : arg5.IsWhole) (arg6 : Memref sig .tc .vmem S8x4096 .f32) (harg6 : arg6.IsWhole) (arg7 : Memref sig .tc .vmem S8x4096 .f32) (harg7 : arg7.IsWhole) (arg8 : Memref sig .tc .vmem S1x8x128 .f32) (harg8 : arg8.IsWhole) (arg9 : Memref sig .tc .vmem S8x128 .f32) (harg9 : arg9.IsWhole)
    (hc0 : cond0 i) (hc1 : ¬cond1 i) (x0 : Vec F S64x4096 .f32) (x1 x2 : Vec F S8x4096 .f32) (x3 : Vec F S64x4096 .f32) (x4 x5 : Vec F S8x4096 .f32)
    (xo : Vec F S1x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (accNew i x0 x1 x2 x3 x4 x5 (k0_pay3 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%ds, %fs, -, Hs⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfo
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [Ho]
  · iexists _; isplitr
    · ipureintro; exact harg8.read_unread _
    · iexact Ho
  iexists _; isplitr; swap; · iexact Hs
  ipureintro
  sl_unfold_words
  rw [View.read_writes_eq_canon _ _ _ (fun y => ⟨_, List.mem_cons_self, View.mem_set_unit_zero (S := S8x128) hz2 Facts₀.inb_S8x128_S8x128_0_0 y⟩), View.canon_cons_unit_zero hz2]
  simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
  rw [View.readCov_unit_zero (S := S8x128) arg9.view hz2 Facts₀.inb_S8x128_S8x128_0_0]
  rfl

set_option maxHeartbeats 1000000 in
/-- The last step of a half: after the accumulator is brought to `accNew`, the second branch copies it, recast with a
    leading unit axis, over whatever the output block held. -/
theorem bodyLast (c : Dev nD) (i : grid0.Coords) (arg2 : Memref sig .tc .vmem S64x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S64x4096 .f32) (harg5 : arg5.IsWhole) (arg6 : Memref sig .tc .vmem S8x4096 .f32) (harg6 : arg6.IsWhole) (arg7 : Memref sig .tc .vmem S8x4096 .f32) (harg7 : arg7.IsWhole) (arg8 : Memref sig .tc .vmem S1x8x128 .f32) (harg8 : arg8.IsWhole) (arg9 : Memref sig .tc .vmem S8x128 .f32) (harg9 : arg9.IsWhole)
    (hc0 : ¬cond0 i) (hc1 : cond1 i) (x0 : Vec F S64x4096 .f32) (x1 x2 : Vec F S8x4096 .f32) (x3 : Vec F S64x4096 .f32) (x4 x5 : Vec F S8x4096 .f32)
    (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay2 (accNew i x0 x1 x2 x3 x4 x5 s)) ∗ owns (c : Thread nD τ) arg9 fullShare (accNew i x0 x1 x2 x3 x4 x5 s)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, -, Ho⟩, ⟨%fs, %hfs, Hs⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [Ho]
  · iexists _; isplitr; swap; · iexact Ho
    ipureintro
    sl_unfold_words
    rw [View.read_writes_eq_canon _ _ _ (fun y => ⟨_, List.mem_cons_self, View.mem_set_unit_zero (S := S1x8x128) hz3 Facts₀.inb_S1x8x128_S1x8x128_0_0_0 y⟩), View.canon_cons_unit_zero hz3]
    simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
    rw [View.readCov_unit_zero (S := S8x128) arg9.view hz2 Facts₀.inb_S8x128_S8x128_0_0]
    rfl
  iexists _; isplitr; swap; · iexact Hs
  ipureintro
  sl_unfold_words
  rw [View.read_writes_eq_canon _ _ _ (fun y => ⟨_, List.mem_cons_self, View.mem_set_unit_zero (S := S8x128) hz2 Facts₀.inb_S8x128_S8x128_0_0 y⟩), View.canon_cons_unit_zero hz2]
  simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
  rfl

end Cert.Kernel.Hand

end
-- ==== Proof.LibShareThirds.lean ====
import Idealize.ShloMosaic.Lib.Memref

/-! # A buffer read through three windows: its full share in thirds

A pallas_call that hands ONE array to three windows (a block of rows and the two halo blocks holding the row above and
the row below it) holds that array three times over, so each window gets a share of it: the left half of the full
share, and the two halves of the right half. The three make up the full share again.

Where it is used: such a program's windows have distinct staging buffers but not distinct arrays (`Pipeline.WinFacts₀`
holds, `WinFacts` does not), so its run goes segment by segment (`Pipeline.θ_run_regions_kit`: host stretch, region,
host stretch) with the proof data's `q` at these three shares; the region's entry deals each shared array's full
points-to by `.1` below and its exit joins the three by `.2` — an input window's array is unchanged by the region, so
the three contents agree. -/

noncomputable section

namespace Cert.Lib

open Idealize.ShloMosaic
open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A full share is its left half and the two halves of its right half, at the same contents. -/
theorem pointsTo_thirds {ℓ : Loc nD τ sig} (f : ℓ.ty.Contents Val) :
    (ℓ ↦{fullShare} f : sProp 𝕄) ⊣⊢ iprop((ℓ ↦{fullShare.left} f) ∗ (ℓ ↦{fullShare.right.left} f) ∗ (ℓ ↦{fullShare.right.right} f)) := by
  have hl := pointsTo_share (I := Finset.univ) (ℓ := ℓ) (f := f) (Ix := Ix) (Name := Name) (U := U) (Lvl := Lvl) (PosShare.mem_left_op_right fullShare)
  have hr := pointsTo_share (I := Finset.univ) (ℓ := ℓ) (f := f) (Ix := Ix) (Name := Name) (U := U) (Lvl := Lvl) (PosShare.mem_left_op_right fullShare.right)
  constructor
  · iintro H
    ihave H2 := hl.1 $$ H
    icases H2 with ⟨Hl, Hr⟩
    ihave H3 := hr.1 $$ Hr
    icases H3 with ⟨Hrl, Hrr⟩
    isplitl [Hl]; · iexact Hl
    isplitl [Hrl] <;> iassumption
  · iintro ⟨Hl, Hrl, Hrr⟩
    iapply hl.2
    isplitl [Hl]; · iexact Hl
    iapply hr.2
    isplitl [Hrl] <;> iassumption

end Cert.Lib

end
-- ==== Proof.SharesK.lean ====
import proofs.«126209_j52080773431332_2_alg».proof.Proof.Gen.Kernel.Launch
import proofs.«126209_j52080773431332_2_alg».proof.Proof.Gen.Kernel.Points
import proofs.«126209_j52080773431332_2_alg».proof.Proof.LibShareThirds
import Idealize.ShloMosaic.Lib.Pipeline.Regions
import Idealize.ShloMosaic.Lib.Pipeline.Frame
import Idealize.ShloMosaic.Lib.Pipeline.Kit

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows

The region's seven windows stand on three arrays: windows 0, 1, 2 (the 64-row block and the 8-row blocks
holding the row above it and the row below it) all read the first argument; windows 3, 4, 5 read the
channel mean the host computed; window 6 writes the two partial sums. An array read through three windows
is held as three shares that make up the full one. -/

variable (m : (ℓ : Loc nD τ sig) → Buf (Elt F) ℓ)

/-- Core `c`'s buffers at launch, as a valuation; -/
abbrev V₀ (c : Dev nD) : Valuation τ sig (Elt F) := fun b => m (c, b)
/-- after the host operations before the region (the channel mean); -/
abbrev V1 (c : Dev nD) : Valuation τ sig (Elt F) := StableHlo.after hostOps0 (V₀ m c)
/-- and the same read at a TensorCore reference. -/
abbrev V (c : Dev nD) (b : Ref sig .tc) : Buf (Elt F) ((c : Thread nD τ).loc b) := V1 m c (Proc.devRef .tc b)

/-- The share of its array each input window is given: a third each of the two arrays read three ways. -/
def qsh : Fin 7 → PosShare TreeShare := fun
  | 0 => fullShare.left | 1 => fullShare.right.left | 2 => fullShare.right.right
  | 3 => fullShare.left | 4 => fullShare.right.left | 5 => fullShare.right.right
  | 6 => fullShare
  | ⟨_ + 7, h⟩ => absurd h (Nat.not_lt.2 (Nat.le_add_left _ _))

/-- The three distinct buffers behind the seven windows. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg0, main_v2, main_v3] (by decide) (by decide) _

/-- A full share is its left half, and the two halves of its right half. -/
theorem thirds {ℓ : Loc nD τ sig} (f : ℓ.ty.Contents (Elt F)) :
    (ℓ ↦{fullShare} f : sProp 𝕄) ⊣⊢ iprop((ℓ ↦{fullShare.left} f) ∗ (ℓ ↦{fullShare.right.left} f) ∗ (ℓ ↦{fullShare.right.right} f)) :=
  Cert.Lib.pointsTo_thirds f

variable {c : Dev nD} (dat : Dat τ (Elt F) Unit ℕ (UR sig nD τ) ℕ cfg0 c)

/-- The pipeline's seven arrays, window by window, when the input windows hold the shares `qsh`. -/
theorem arrays0_eq (hq : ∀ w, dat.q w = qsh w)
    (Fn : (w : Fin cfg0.W) → Buf (Elt F) ((cfg0.win w).arr.view.loc (c : Thread nD τ))) :
    (dat.arrays Fn : sProp 𝕄)
      = iprop((((c : Thread nD τ).loc main_arg0) ↦{fullShare.left} Fn 0) ∗ (((c : Thread nD τ).loc main_arg0) ↦{fullShare.right.left} Fn 1)
          ∗ (((c : Thread nD τ).loc main_arg0) ↦{fullShare.right.right} Fn 2)
          ∗ (((c : Thread nD τ).loc main_v2) ↦{fullShare.left} Fn 3) ∗ (((c : Thread nD τ).loc main_v2) ↦{fullShare.right.left} Fn 4)
          ∗ (((c : Thread nD τ).loc main_v2) ↦{fullShare.right.right} Fn 5)
          ∗ (((c : Thread nD τ).loc main_v3) ↦{fullShare} Fn 6)) := by
  unfold Pipeline.Dat.arrays
  rw [bigSep_W0]
  have hs : ∀ w, dat.share w = qsh w := fun w => by
    unfold Pipeline.Dat.share; rw [hq w]
    match w with
    | 0 => rfl | 1 => rfl | 2 => rfl | 3 => rfl | 4 => rfl | 5 => rfl | 6 => rfl
  rw [hs 0, hs 1, hs 2, hs 3, hs 4, hs 5, hs 6]
  rw [(arr_whole0 0).set_eq_univ, (arr_whole0 3).set_eq_univ, (arr_whole0 6).set_eq_univ]
  rfl

end Cert.Kernel.Hand

end
-- ==== Proof.RegionRunK.lean ====
import proofs.«126209_j52080773431332_2_alg».proof.Proof.Gen.Kernel.Launch
import proofs.«126209_j52080773431332_2_alg».proof.Proof.Gen.Kernel.Points
import proofs.«126209_j52080773431332_2_alg».proof.Proof.SharesK
import Idealize.ShloMosaic.Lib.Pipeline.Regions
import Idealize.ShloMosaic.Lib.Pipeline.Frame
import Idealize.ShloMosaic.Lib.Pipeline.Kit

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run of @main, from any proof data that fits

@main is five host operations (the channel mean), the kernel region, and five more host operations (the sum of
the two partial sums). The run below goes segment by segment: a host stretch over the unscoped buffers held
whole; the region, entered by dealing each array read through three windows into three shares and left by
joining the shares again; a second host stretch over the buffers as the region left them. What is asked of
the proof data is collected in `Fits`. -/

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- What the run asks of the proof data: the arrays enter at the buffers' contents; the input windows hold the
    shares `qsh`; nothing is owed and no wait is recorded; the body obligation holds; and the invariant is made of, and gives back, the
    scoped buffers no window stages (the scratch accumulator). -/
structure Fits : Prop where
  hA : ∀ c w, (dats 0 c).A w = V m c (Pipeline.arrRef spec0 w)
  hq : ∀ c w, (dats 0 c).q w = qsh w
  howed : ∀ c t, (dats 0 c).owed t = 0
  hrec : ∀ c t, (dats 0 c).recorded t = Set.univ
  hbody : ∀ c, BodyObligation (dats 0 c) (defs₀ (F := F)) Variants.none () Set.univ
  hin : ∀ c, (Pipeline.scopedRest (Ix := Unit) (Name := ℕ) (U := UR sig nD τ) (Lvl := ℕ) (Val := Elt F) spec0 c : sProp 𝕄) ⊢ (dats 0 c).Φ 0
  hout : ∀ c, (dats 0 c).Φ (Fin.last cfg0.N) ⊢ (Pipeline.scopedRest (Ix := Unit) (Name := ℕ) (U := UR sig nD τ) (Lvl := ℕ) (Val := Elt F) spec0 c : sProp 𝕄)

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- The partial sums' array when the region ends. -/
abbrev fin6 (c : Dev nD) : Buf (Elt F) ((c : Thread nD τ).loc main_v3) := (dats 0 c).arrAt 6 cfg0.N
/-- The buffers when the region ends: the partial sums written, every other buffer as the region found it; -/
abbrev V2 (c : Dev nD) : Valuation τ sig (Elt F) := Function.update (V1 m c) (Proc.devRef .tc main_v3) (fin6 dats c)
/-- and at the end of @main. -/
abbrev V3 (c : Dev nD) : Valuation τ sig (Elt F) := StableHlo.after hostOps1 (V2 m dats c)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The host stretch before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The host stretch after it, over the buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V2 m dats) R

/-- A buffer the region does not write holds in `V2` what it held on entry; -/
theorem V2_of_ne (c : Dev nD) (b : Ref sig .tc) (hb : b ≠ main_v3) : V2 m dats c (Proc.devRef .tc b) = V m c b :=
  Function.update_of_ne (StableHlo.devRef_ne_of_ne hb) _ _
/-- the partial sums' array holds what the region wrote. -/
theorem V2_v3 (c : Dev nD) : V2 m dats c (Proc.devRef .tc main_v3) = fin6 dats c := Function.update_self _ _ _

/-- ENTRY: the unscoped buffers as the first host stretch left them are the seven windows' arrays at their entry
    contents — the two arrays read through three windows dealt into thirds — and the buffers that bypass the region. -/
theorem entry_arrays (h : Fits m dats) (c : Dev nD) :
    (StableHlo.held (c : Thread nD τ) (Pipeline.ucRefs τ sig) (V1 m c) : sProp 𝕄)
      ⊢ iprop((dats 0 c).arrays ((dats 0 c).arrAt · 0)
          ∗ Pipeline.unscopedRest (Ix := Unit) (Name := ℕ) (U := UR sig nD τ) (Lvl := ℕ) spec0 c (V m c)) := by
  rw [show StableHlo.held (c : Thread nD τ) (Pipeline.ucRefs τ sig) (V1 m c) = unscopedBufs c (V m c) from (Pipeline.unscopedBufs_held c _).symm,
    Pipeline.unscopedBufs_split₀ cfgs 0 winFacts₀0.arr_unscoped c, arrBufs0_eq,
    show ((dats 0 c).arrAt · 0) = fun w => V m c (Pipeline.arrRef spec0 w) from funext fun w => h.hA c w,
    arrays0_eq (dats 0 c) (h.hq c)]
  have t0 := (thirds (F := F) (ℓ := (c : Thread nD τ).loc main_arg0) (V m c main_arg0)).1
  have t2 := (thirds (F := F) (ℓ := (c : Thread nD τ).loc main_v2) (V m c main_v2)).1
  iintro ⟨⟨H0, H2, H3⟩, Hrest⟩
  ihave T0 := t0 $$ H0
  ihave T2 := t2 $$ H2
  icases T0 with ⟨A0, A1, A2⟩
  icases T2 with ⟨B0, B1, B2⟩
  isplitr [Hrest]
  · isplitl [A0]; · iexact A0
    isplitl [A1]; · iexact A1
    isplitl [A2]; · iexact A2
    isplitl [B0]; · iexact B0
    isplitl [B1]; · iexact B1
    isplitl [B2]; · iexact B2
    iexact H3
  iexact Hrest

/-- EXIT: the seven windows' arrays at their final contents — an input's as it entered, the thirds joined again — and
    the buffers that bypassed the region are the unscoped buffers at `V2`. -/
theorem exit_held (h : Fits m dats) (c : Dev nD) :
    iprop((dats 0 c).arrays ((dats 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (V2 m dats c) : sProp 𝕄) := by
  have hrest : (Pipeline.unscopedRest (Ix := Unit) (Name := ℕ) (U := UR sig nD τ) (Lvl := ℕ) spec0 c (fun b => V2 m dats c (Proc.devRef .tc b)) : sProp 𝕄)
      = Pipeline.unscopedRest (Ix := Unit) (Name := ℕ) (U := UR sig nD τ) (Lvl := ℕ) spec0 c (V m c) := by
    unfold Pipeline.unscopedRest
    exact bigSep_congr fun b hb => by
      beta_reduce
      rw [V2_of_ne m dats c b fun e => (Finset.mem_sdiff.mp hb).2 (Finset.mem_image.mpr ⟨6, Finset.mem_univ _, e.symm⟩)]
  have hkeep : ∀ w : Fin 7, (cfg0.win w).isOut = false → (dats 0 c).arrAt w cfg0.N = V m c (Pipeline.arrRef spec0 w) := fun w hw =>
    ((dats 0 c).arrAt_in w hw _).trans (h.hA c w)
  rw [show StableHlo.held (c : Thread nD τ) (Pipeline.ucRefs τ sig) (V2 m dats c)
      = unscopedBufs c (fun b => V2 m dats c (Proc.devRef .tc b)) from (Pipeline.unscopedBufs_held c _).symm,
    Pipeline.unscopedBufs_split₀ cfgs 0 winFacts₀0.arr_unscoped c, arrBufs0_eq, hrest, arrays0_eq (dats 0 c) (h.hq c)]
  beta_reduce
  rw [hkeep 0 rfl, hkeep 1 rfl, hkeep 2 rfl, hkeep 3 rfl, hkeep 4 rfl, hkeep 5 rfl,
    V2_of_ne m dats c main_arg0 (by decide), V2_of_ne m dats c main_v2 (by decide), V2_v3]
  iintro ⟨⟨A0, A1, A2, B0, B1, B2, H3⟩, Hrest⟩
  isplitr [Hrest]
  · isplitl [A0 A1 A2]
    · iapply (thirds _).2
      isplitl [A0]; · iexact A0
      isplitl [A1] <;> iassumption
    isplitl [B0 B1 B2]
    · iapply (thirds _).2
      isplitl [B0]; · iexact B0
      isplitl [B1] <;> iassumption
    iexact H3
  iexact Hrest

set_option backward.isDefEq.respectTransparency.types false in
/-- THE REGION: the decided layout (the windows may share arrays), no semaphore of the kernel's own, the body
    obligation; entered from what the first host stretch left, left with the partial sums written. -/
def reg0 (h : Fits m dats) : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none spec0
  hbody c := (h.hbody c).loose
  hwaits := Pipeline.hwaits_of_owed_zero _ _ _ _ L lv 0 h.howed
  pre c := iprop(StableHlo.held (c : Thread nD τ) (Pipeline.ucRefs τ sig) (V1 m c) ∗ R c)
  post c := iprop(StableHlo.held (c : Thread nD τ) (Pipeline.ucRefs τ sig) (V2 m dats c) ∗ R c)
  X c := iprop(emp)
  Y c := iprop(emp)
  Z c := Pipeline.unscopedRest (Ix := Unit) (Name := ℕ) (U := UR sig nD τ) (Lvl := ℕ) spec0 c (V m c)
  hentry c := by
    have hent := entry_arrays m dats h c
    iintro ⟨⟨Hh, HO⟩, -, -⟩
    ihave H := hent $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [h.hrec c 0]; exact Set.mem_univ x)
      rw [h.howed c 0]; iexact HO
    isplitr; · iempintro
    iexact Hrest
  hin c := by
    iintro ⟨-, -, Hr⟩
    iapply (h.hin c); iexact Hr
  hout c := by
    rw [Pipeline.ownSems0_none]
    refine (h.hout c).trans ?_
    iintro Hr
    isplitr; · iempintro
    isplitr; · iempintro
    iexact Hr
  hexit c := by
    iintro ⟨Ha, HO, -, HZ⟩
    imodintro
    isplitr [HO]
    · iapply (exit_held m dats h c)
      isplitl [Ha] <;> iassumption
    · unfold Pipeline.Dat.owesAt Pipeline.owesWithin
      icases HO with ⟨%W, -, HO⟩; iexists W
      rw [h.howed c (Fin.last _)]; iexact HO

/-- @main as the list of the three. -/
abbrev segs (h : Fits m dats) : List (Pipeline.Seg (pcfgs (F := F)) adm dats () defs₀ 𝒱₀ L lv) :=
  [.host (seg0 m), .region (reg0 m dats h), .host (seg1 m dats)]

set_option backward.isDefEq.respectTransparency.types false in
/-- At the compiled mesh, from any memory with zero counters: every weakly fair execution of @main on the
    TensorCores terminates, nothing faulting, and every final state holds each unscoped buffer at `V3` — the
    host operations' results over the buffers as the region left them. -/
theorem run_main (h : Fits m dats) : θ_run defs (onTc (τ := τ) (main (F := F))) (s₀ m ρ)
    (fun r => ∀ c : Dev nD, ∀ b ∈ Pipeline.ucRefs τ sig, r.2.mem ((c : Dev nD), b) = V3 m dats c b) :=
  Pipeline.θ_run_regions_kit (pcfgs (F := F)) adm dats () cellOf_inj emb₁ defs₀ 𝒱₀ L lv m ρ main (segs m dats h)
    (fun c Q => by rw [main_segs adm dats () 𝒱₀ L lv (seg0 m) (seg1 m dats) (reg0 m dats h) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V3 m dats c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V3 m dats c b)
    (hfin := fun c s' => by
      unfold StableHlo.held
      iintro ⟨Hh, HSI⟩
      imodintro
      iapply (pointsTo_read_all (Pipeline.ucRefs τ sig) (fun b => ((c : Dev nD), b)) (V3 m dats c) s')
      isplitl [Hh] <;> iassumption)
    (hQ := fun _ h => h)

end Cert.Kernel.Hand

end
-- ==== Proof.DataK.lean ====
import proofs.«126209_j52080773431332_2_alg».proof.Proof.BodyRunK
import proofs.«126209_j52080773431332_2_alg».proof.Proof.RegionRunK
import proofs.«126209_j52080773431332_2_alg».proof.Proof.Gen.Kernel.Points
import proofs.«126209_j52080773431332_2_alg».proof.Proof.Gen.Kernel.Launch
import Idealize.ShloMosaic.Lib.Pipeline.Kit
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

/-! ## The proof data

The grid's 64 points are two halves of 32 steps. At a half's first step the body zeroes the accumulator before adding the
block's sum; at its last it copies the accumulator to the half's output block. So the accumulator after point `n` is the
block sums of the half's steps up to `n`, and the output block written back at a half's last point is that half's sum in
every entry. -/

variable (m : (ℓ : Loc nD τ sig) → Buf (Elt F) ℓ)

/-- The first branch is taken exactly at the first step of a half; -/
theorem hcond0 : ∀ t : Fin cfg0.N, cond0 (grid0.coords t) ↔ t.val % 32 = 0 :=
  (by decide +kernel : ∀ t : Fin grid0.N, cond0 (grid0.coords t) ↔ t.val % 32 = 0)
/-- the second exactly at the last. -/
theorem hcond1 : ∀ t : Fin cfg0.N, cond1 (grid0.coords t) ↔ t.val % 32 = 31 :=
  (by decide +kernel : ∀ t : Fin grid0.N, cond1 (grid0.coords t) ↔ t.val % 32 = 31)
/-- The output window is idle at every other step, -/
theorem idle6 : ∀ t : Fin cfg0.N, ¬ t.val % 32 = 31 → cfg0.idle 6 (grid0.coords t) = true :=
  (by decide +kernel : ∀ t : Fin grid0.N, ¬ t.val % 32 = 31 → cfg0.idle 6 (grid0.coords t) = true)
/-- live at the last, -/
theorem live6 : ∀ t : Fin cfg0.N, t.val % 32 = 31 → cfg0.idle 6 (grid0.coords t) = false :=
  (by decide +kernel : ∀ t : Fin grid0.N, t.val % 32 = 31 → cfg0.idle 6 (grid0.coords t) = false)
/-- and not written back where it is idle. -/
theorem noFlush6 (t : Fin cfg0.N) (h : ¬ t.val % 32 = 31) : (cfg0.win 6).flush t = false := by
  cases hf : (cfg0.win 6).flush t with
  | false => rfl
  | true => exact absurd ((flush0_6 t).mp hf) h

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a position (positions past the grid wrap; none is ever used). -/
def pt (n : ℕ) : Fin cfg0.N := ⟨n % 64, lt_of_lt_of_eq (Nat.mod_lt _ (by decide)) N_0.symm⟩

theorem pt_val (t : Fin cfg0.N) : pt t.val = t :=
  Fin.ext (Nat.mod_eq_of_lt (lt_of_lt_of_eq t.isLt N_0))

/-- One point's update of the accumulator, from the point's six blocks. -/
def step (c : Dev nD) (t : Fin cfg0.N) (s : Vec F S8x128 .f32) : Vec F S8x128 .f32 :=
  accNew (grid0.coords t) (iblk m c 0 t) (iblk m c 1 t) (iblk m c 2 t) (iblk m c 3 t) (iblk m c 4 t) (iblk m c 5 t) s

/-- The accumulator after the point at position `n`: reset at a half's first step, carried otherwise. -/
def accAt (c : Dev nD) : ℕ → Vec F S8x128 .f32
  | 0 => step m c (pt 0) (k0_pay3 (F := F))
  | n + 1 => step m c (pt (n + 1)) (if (n + 1) % 32 = 0 then k0_pay3 (F := F) else accAt c n)

/-- The same at a point: one step from the zero vector or from the accumulator the point before left. -/
theorem accAt_eq (c : Dev nD) (t : Fin cfg0.N) :
    accAt m c t.val = step m c t (if t.val % 32 = 0 then k0_pay3 (F := F) else accAt m c (t.val - 1)) := by
  obtain ⟨n, hn⟩ := t
  cases n with
  | zero => show step m c (pt 0) _ = _; rw [show pt 0 = (⟨0, hn⟩ : Fin cfg0.N) from pt_val ⟨0, hn⟩]; rfl
  | succ n => show step m c (pt (n + 1)) _ = _; rw [show pt (n + 1) = (⟨n + 1, hn⟩ : Fin cfg0.N) from pt_val ⟨n + 1, hn⟩]; rfl

/-- The scratch accumulator, the one scoped buffer no window stages. -/
abbrev scM : Memref sig .tc .vmem S8x128 .f32 := Memref.whole cc0_scratch0

/-- The invariant before position `n`: the accumulator at anything before the first point, then at what the point
    before left. -/
def PhiS (c : Dev nD) : ℕ → sProp 𝕄
  | 0 => Pipeline.scopedRest (Ix := Unit) (Name := ℕ) (U := UR sig nD τ) (Lvl := ℕ) (Val := Elt F) spec0 c
  | n + 1 => owns (c : Thread nD τ) scM fullShare (accAt m c n)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (accAt m c t.val)
  Φ t := PhiS m c t.val
  q := qsh
  owed _ := 0

theorem A_eq (c : Dev nD) (w : Fin cfg0.W) : (dats m 0 c).A w = V m c (Pipeline.arrRef spec0 w) := by
  dsimp only [dats]

theorem after_in (c : Dev nD) (t : Fin cfg0.N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t := by
  refine ⟨?_, ?_, ?_, ?_, ?_, ?_⟩ <;> dsimp only [dats]
theorem after_out (c : Dev nD) (t : Fin cfg0.N) : (dats m 0 c).after 6 t = k0_pay2 (accAt m c t.val) := by dsimp only [dats]

/-- Every input window is fetched at every point: its staging buffer holds its block when the body starts. -/
theorem before0 (c : Dev nD) (t : Fin cfg0.N) (d) : (dats m 0 c).before 0 t d = iblk m c 0 t := by
  rw [(dats m 0 c).before_fetched 0 t (fetch0_0 t) d]
  unfold Dat.fetched Dat.blockOf iblk
  rw [A_eq]
  rfl
theorem before1 (c : Dev nD) (t : Fin cfg0.N) (d) : (dats m 0 c).before 1 t d = iblk m c 1 t := by
  rw [(dats m 0 c).before_fetched 1 t (fetch0_1 t) d]
  unfold Dat.fetched Dat.blockOf iblk
  rw [A_eq]
  rfl
theorem before2 (c : Dev nD) (t : Fin cfg0.N) (d) : (dats m 0 c).before 2 t d = iblk m c 2 t := by
  rw [(dats m 0 c).before_fetched 2 t (fetch0_2 t) d]
  unfold Dat.fetched Dat.blockOf iblk
  rw [A_eq]
  rfl
theorem before3 (c : Dev nD) (t : Fin cfg0.N) (d) : (dats m 0 c).before 3 t d = iblk m c 3 t := by
  rw [(dats m 0 c).before_fetched 3 t (fetch0_3 t) d]
  unfold Dat.fetched Dat.blockOf iblk
  rw [A_eq]
  rfl
theorem before4 (c : Dev nD) (t : Fin cfg0.N) (d) : (dats m 0 c).before 4 t d = iblk m c 4 t := by
  rw [(dats m 0 c).before_fetched 4 t (fetch0_4 t) d]
  unfold Dat.fetched Dat.blockOf iblk
  rw [A_eq]
  rfl
theorem before5 (c : Dev nD) (t : Fin cfg0.N) (d) : (dats m 0 c).before 5 t d = iblk m c 5 t := by
  rw [(dats m 0 c).before_fetched 5 t (fetch0_5 t) d]
  unfold Dat.fetched Dat.blockOf iblk
  rw [A_eq]
  rfl

end Cert.Kernel.Hand

end
-- ==== Proof.ObligK.lean ====
import proofs.«126209_j52080773431332_2_alg».proof.Proof.DataK
import proofs.«126209_j52080773431332_2_alg».proof.Proof.Gen.Kernel.Launch
import Idealize.ShloMosaic.Lib.Pipeline.Kit
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

/-! ## The body obligation

At every point the six input staging buffers hold their blocks, the body runs as its step's case says, and what it
leaves is what the proof data names. -/

variable (m : (ℓ : Loc nD τ sig) → Buf (Elt F) ℓ)

/-- Whatever the invariant holds of the accumulator, it holds the accumulator at something. -/
theorem PhiS_any (c : Dev nD) (n : ℕ) : PhiS m c n ⊢ iprop(∃ d, owns (c : Thread nD τ) scM fullShare d) := by
  cases n with
  | zero =>
    show (Pipeline.scopedRest (Ix := Unit) (Name := ℕ) (U := UR sig nD τ) (Lvl := ℕ) (Val := Elt F) spec0 c : sProp 𝕄) ⊢ _
    rw [scopedRest0_eq]; simp only [scM, owns_whole]; exact .rfl
  | succ n => show owns (c : Thread nD τ) scM fullShare (accAt m c n) ⊢ _; iintro H; iexists _; iexact H

/-- After a point that is not a half's first, the invariant before the next holds the accumulator at that point's. -/
theorem PhiS_pos (c : Dev nD) (n : ℕ) (hn : n ≠ 0) : PhiS m c n = owns (c : Thread nD τ) scM fullShare (accAt m c (n - 1)) := by
  cases n with
  | zero => exact absurd rfl hn
  | succ n => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c t, before1 m c t, before2 m c t, before3 m c t, before4 m c t, before5 m c t]
  rw [show (dats m 0 c).owesAt () t.succ = (dats m 0 c).owesAt () t.castSucc from rfl]
  rw [show (dats m 0 c).Φ t.succ = owns (c : Thread nD τ) scM fullShare (accAt m c t.val) from rfl]
  rw [show (dats m 0 c).Φ t.castSucc = PhiS m c t.val from rfl]
  rw [show (dats m 0 c).leavesExact 0 t = owns (c : Thread nD τ) (st0_0 t) fullShare (iblk m c 0 t) from by
    unfold Dat.leavesExact; rw [show cfg0.idle 0 (cfg0.grid.coords t) = false from rfl, (after_in m c t).1]]
  rw [show (dats m 0 c).leavesExact 1 t = owns (c : Thread nD τ) (st0_1 t) fullShare (iblk m c 1 t) from by
    unfold Dat.leavesExact; rw [show cfg0.idle 1 (cfg0.grid.coords t) = false from rfl, (after_in m c t).2.1]]
  rw [show (dats m 0 c).leavesExact 2 t = owns (c : Thread nD τ) (st0_2 t) fullShare (iblk m c 2 t) from by
    unfold Dat.leavesExact; rw [show cfg0.idle 2 (cfg0.grid.coords t) = false from rfl, (after_in m c t).2.2.1]]
  rw [show (dats m 0 c).leavesExact 3 t = owns (c : Thread nD τ) (st0_3 t) fullShare (iblk m c 3 t) from by
    unfold Dat.leavesExact; rw [show cfg0.idle 3 (cfg0.grid.coords t) = false from rfl, (after_in m c t).2.2.2.1]]
  rw [show (dats m 0 c).leavesExact 4 t = owns (c : Thread nD τ) (st0_4 t) fullShare (iblk m c 4 t) from by
    unfold Dat.leavesExact; rw [show cfg0.idle 4 (cfg0.grid.coords t) = false from rfl, (after_in m c t).2.2.2.2.1]]
  rw [show (dats m 0 c).leavesExact 5 t = owns (c : Thread nD τ) (st0_5 t) fullShare (iblk m c 5 t) from by
    unfold Dat.leavesExact; rw [show cfg0.idle 5 (cfg0.grid.coords t) = false from rfl, (after_in m c t).2.2.2.2.2]]
  rw [accAt_eq m c t]; unfold step
  by_cases h0 : t.val % 32 = 0
  · have h1 : ¬ t.val % 32 = 31 := by omega
    rw [if_pos h0, Dat.leavesExact_idle (dats m 0 c) 6 t (idle6 t h1) (noFlush6 t h1)]
    have hany := PhiS_any m c t.val
    iintro ⟨HS, Ho, ⟨%d0, H0⟩, ⟨%d1, H1⟩, ⟨%d2, H2⟩, ⟨%d3, H3⟩, ⟨%d4, H4⟩, ⟨%d5, H5⟩, ⟨%d6, H6⟩⟩
    ihave HS' := hany $$ HS
    iapply (bodyFirst c (grid0.coords t) _ _ _ _ _ _ _ _ _ _ _ _ _ _ _ _ ((hcond0 t).mpr h0) (fun h => h1 ((hcond1 t).mp h))
      (iblk m c 0 t) (iblk m c 1 t) (iblk m c 2 t) (iblk m c 3 t) (iblk m c 4 t) (iblk m c 5 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS']; · iexact HS'
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hpos : t.val ≠ 0 := fun h => h0 (by rw [h])
    rw [if_neg h0, PhiS_pos m c t.val hpos]
    by_cases h1 : t.val % 32 = 31
    · rw [show (dats m 0 c).leavesExact 6 t = owns (c : Thread nD τ) (st0_6 t) fullShare ((dats m 0 c).after 6 t) from by
        unfold Dat.leavesExact; rw [live6 t h1], after_out m c t, accAt_eq m c t, if_neg h0]
      unfold step
      iintro ⟨HS, Ho, ⟨%d0, H0⟩, ⟨%d1, H1⟩, ⟨%d2, H2⟩, ⟨%d3, H3⟩, ⟨%d4, H4⟩, ⟨%d5, H5⟩, ⟨%d6, H6⟩⟩
      iapply (bodyLast c (grid0.coords t) _ _ _ _ _ _ _ _ _ _ _ _ _ _ _ _ (fun h => h0 ((hcond0 t).mp h)) ((hcond1 t).mpr h1)
        (iblk m c 0 t) (iblk m c 1 t) (iblk m c 2 t) (iblk m c 3 t) (iblk m c 4 t) (iblk m c 5 t) (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle6 t h1) (noFlush6 t h1)]
      iintro ⟨HS, Ho, ⟨%d0, H0⟩, ⟨%d1, H1⟩, ⟨%d2, H2⟩, ⟨%d3, H3⟩, ⟨%d4, H4⟩, ⟨%d5, H5⟩, ⟨%d6, H6⟩⟩
      iapply (bodyMid c (grid0.coords t) _ _ _ _ _ _ _ _ _ _ _ _ _ _ _ _ (fun h => h0 ((hcond0 t).mp h)) (fun h => h1 ((hcond1 t).mp h))
        (iblk m c 0 t) (iblk m c 1 t) (iblk m c 2 t) (iblk m c 3 t) (iblk m c 4 t) (iblk m c 5 t) ((dats m 0 c).before 6 t d6) (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- These proof data fit the run of @main. -/
theorem fits : Fits m (dats m) where
  hA := A_eq m
  hq _ _ := rfl
  howed _ _ := rfl
  hrec _ _ := rfl
  hbody := body_obligation m
  hin _ := .rfl
  hout c := by
    show owns (c : Thread nD τ) scM fullShare (accAt m c 63) ⊢ _
    rw [scopedRest0_eq]; simp only [scM, owns_whole]
    iintro H; iexists _; iexact H

end Cert.Kernel.Hand

end
-- ==== Proof.KKeepK.lean ====
import proofs.«126209_j52080773431332_2_alg».proof.Proof.SharesK

/-! # The host operations around the region never write the two arguments

Whatever the float operations mean, the five host operations before the region write the zero constant, the channel
sum, the constant 3, its broadcast and the quotient; the five after it write the two cut-out entries, their two
scalars and the sum. Neither stretch writes an argument, so each argument holds afterwards what it held before. -/

noncomputable section

namespace Cert.Kernel.Hand

open Cert.Kernel Cert.Kernel.Gen
open Idealize.ShloMosaic Idealize.ShloMosaic.TcCoe Idealize.ShloMosaic.StableHlo
open Idealize.SL.Sem

variable {F : FTy → Type} [FloatOps F]

/-- No host operation before the region writes the first argument, -/
theorem keepV_arg0 (m : (ℓ : Loc nD τ sig) → Buf (Elt F) ℓ) (c : Dev nD) :
    V (F := F) m c main_arg0 = m ((c : Thread nD τ).loc main_arg0) := by
  dsimp only [V, V1, hostOps0]
  after_results

/-- nor the second. -/
theorem keepV_arg1 (m : (ℓ : Loc nD τ sig) → Buf (Elt F) ℓ) (c : Dev nD) :
    V (F := F) m c main_arg1 = m ((c : Thread nD τ).loc main_arg1) := by
  dsimp only [V, V1, hostOps0]
  after_results

/-- The host operations after the region write neither argument. -/
theorem keepTail (W : Valuation τ sig (Elt F)) (b : Ref sig .tc) (hb : b = main_arg0 ∨ b = main_arg1) :
    StableHlo.after (hostOps1 (F := F)) W (Proc.devRef .tc b) = W (Proc.devRef .tc b) := by
  rcases hb with rfl | rfl
  · dsimp only [hostOps1]
    after_results
  · dsimp only [hostOps1]
    after_results

end Cert.Kernel.Hand

end
-- ==== Proof.FrameOfK.lean ====
import proofs.«126209_j52080773431332_2_alg».proof.Proof.ObligK
import proofs.«126209_j52080773431332_2_alg».proof.Proof.KKeepK
import proofs.«126209_j52080773431332_2_alg».proof.Proof.Gen.Kernel.Launch
import Idealize.ShloMosaic.Lib.Pipeline.Kit
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

/-! ## The frame

No host operation writes an argument and no window writes back into one, so the run's final state holds both as
launched. -/

variable (m : (ℓ : Loc nD τ sig) → Buf (Elt F) ℓ) (ρ : Dev nD → PrngReg)

/-- An unscoped reference of the TensorCore is among the buffers the run tracks. -/
theorem mem_uc (b : Ref sig .tc) (hb : (Proc.devRef (τ := τ) .tc b).isScoped = false) : Proc.devRef .tc b ∈ Pipeline.ucRefs τ sig :=
  Finset.mem_filter.mpr ⟨Finset.mem_map.mpr ⟨b, Finset.mem_univ _, rfl⟩, by rw [hb]; exact Bool.false_ne_true⟩

/-- The first argument ends as launched: neither host stretch nor the region writes it; -/
theorem kept0 (c : Dev nD) : V3 m (dats m) c (Proc.devRef .tc main_arg0) = m ((c : Thread nD τ).loc main_arg0) :=
  (keepTail _ main_arg0 (.inl rfl)).trans ((V2_of_ne m (dats m) c main_arg0 (by decide)).trans (keepV_arg0 m c))
/-- so does the second. -/
theorem kept1 (c : Dev nD) : V3 m (dats m) c (Proc.devRef .tc main_arg1) = m ((c : Thread nD τ).loc main_arg1) :=
  (keepTail _ main_arg1 (.inr rfl)).trans ((V2_of_ne m (dats m) c main_arg1 (by decide)).trans (keepV_arg1 m c))

/-- THE FRAME: every weakly fair execution of @main terminates, nothing faulting, with both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 rfl)).trans (kept0 m c), (h c _ (mem_uc main_arg1 rfl)).trans (kept1 m c)⟩)
    (run_main m ρ (dats m) (fits m))

end Cert.Kernel.Hand

end
-- ==== Proof.Point.lean ====
import proofs.«126209_j52080773431332_2_alg».proof.Proof.Gen.KernelIdeal.Skeleton

/-! # One grid point's arithmetic

The body at a grid point reads six blocks — 64 rows of the map with the 8-row blocks holding the row above and the row
below, and the same three of the guide — and adds their 64 × 4096 pixel terms, summed along each row and then down the
rows, to every entry of the 8 × 128 accumulator. -/

noncomputable section

namespace Cert.KernelIdeal.Hand

open Cert.KernelIdeal Cert.KernelIdeal.Gen
open Idealize.ShloMosaic

variable {F : FTy → Type} [FloatOps F]

/-- The block's number among the 64 blocks of 64 rows, as the body computes it from the point's coordinates. -/
def blockWord (i : grid0.Coords) : BitVec 32 :=
  Scalar.addi (Scalar.muli (BitVec.ofNat 32 (i 0).val) 32#32) (BitVec.ofNat 32 (i 1).val)
/-- Whether it is the first block (no row above), -/
def topFlag (i : grid0.Coords) : BitVec 1 := Scalar.cmpi .eq (blockWord i) 0#32
/-- or the last (no row below). -/
def lastFlag (i : grid0.Coords) : BitVec 1 := Scalar.cmpi .eq (blockWord i) 63#32

/-- The accumulator after the body at a point, from the six input blocks and the accumulator before. -/
def accNew (i : grid0.Coords) (x0 : Vec F S64x4096 .f32) (x1 x2 : Vec F S8x4096 .f32) (x3 : Vec F S64x4096 .f32)
    (x4 x5 : Vec F S8x4096 .f32) (s : Vec F S8x128 .f32) : FVec F S8x128 .f32 :=
  k0_pay1 (k0_pay7 (k0_pay4 x0) (k0_pay5 i x0 x1 x2) (k0_pay6 x0)) (k0_pay9 (topFlag i) (lastFlag i) x3 x4 x5)
    (k0_pay10 x3) (k0_pay11) (k0_pay12 x3) (k0_pay13 (F := F)) s

end Cert.KernelIdeal.Hand

end
-- ==== Proof.BodyRun.lean ====
import proofs.«126209_j52080773431332_2_alg».proof.Proof.Point
import proofs.«126209_j52080773431332_2_alg».proof.Proof.Gen.KernelIdeal.Launch
import Idealize.ShloMosaic.Lib.Pipeline.Kit
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first branch is taken at the first step of a half: it zeroes the accumulator. -/
abbrev cond0 (i : grid0.Coords) : Prop := (Scalar.cmpi .ne (Scalar.extui (Scalar.cmpi .eq (BitVec.ofNat 32 (i 1).val) 0#32)) 0#32) = 1#1
/-- Its second at the last step of a half: it copies the accumulator out. -/
abbrev cond1 (i : grid0.Coords) : Prop := k0_cond2 i = 1#1

/-- The origin of a rank-2 block, however its zeros are spelt. -/
theorem hz2 : (![0, 0] : Fin 2 → ℕ) = fun _ => 0 := by funext a; match a with | ⟨0, _⟩ => rfl | ⟨1, _⟩ => rfl
/-- The origin of a rank-3 block. -/
theorem hz3 : (![0, 0, 0] : Fin 3 → ℕ) = fun _ => 0 := by funext a; match a with | ⟨0, _⟩ => rfl | ⟨1, _⟩ => rfl | ⟨2, _⟩ => rfl

set_option maxHeartbeats 1000000 in
/-- A step in the middle of a half: neither branch is taken. From the six input blocks and the accumulator at `s`, the
    body runs to its end leaving the inputs and the idle output block as they were and the accumulator at `accNew`. -/
theorem bodyMid (c : Dev nD) (i : grid0.Coords) (arg2 : Memref sig .tc .vmem S64x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S64x4096 .f32) (harg5 : arg5.IsWhole) (arg6 : Memref sig .tc .vmem S8x4096 .f32) (harg6 : arg6.IsWhole) (arg7 : Memref sig .tc .vmem S8x4096 .f32) (harg7 : arg7.IsWhole) (arg8 : Memref sig .tc .vmem S1x8x128 .f32) (harg8 : arg8.IsWhole) (arg9 : Memref sig .tc .vmem S8x128 .f32) (harg9 : arg9.IsWhole)
    (hc0 : ¬cond0 i) (hc1 : ¬cond1 i) (x0 : Vec F S64x4096 .f32) (x1 x2 : Vec F S8x4096 .f32) (x3 : Vec F S64x4096 .f32) (x4 x5 : Vec F S8x4096 .f32)
    (xo : Vec F S1x8x128 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (accNew i x0 x1 x2 x3 x4 x5 s)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, Hs⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfo; obtain rfl := harg9.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [Ho]
  · iexists _; isplitr
    · ipureintro; exact harg8.read_unread _
    · iexact Ho
  iexists _; isplitr; swap; · iexact Hs
  ipureintro
  sl_unfold_words
  rw [View.read_writes_eq_canon _ _ _ (fun y => ⟨_, List.mem_cons_self, View.mem_set_unit_zero (S := S8x128) hz2 Facts₀.inb_S8x128_S8x128_0_0 y⟩), View.canon_cons_unit_zero hz2]
  simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
  rfl

set_option maxHeartbeats 1000000 in
/-- The first step of a half: the first branch zeroes the accumulator, whatever it held; the body then leaves it at
    `accNew` of the zero vector. -/
theorem bodyFirst (c : Dev nD) (i : grid0.Coords) (arg2 : Memref sig .tc .vmem S64x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S64x4096 .f32) (harg5 : arg5.IsWhole) (arg6 : Memref sig .tc .vmem S8x4096 .f32) (harg6 : arg6.IsWhole) (arg7 : Memref sig .tc .vmem S8x4096 .f32) (harg7 : arg7.IsWhole) (arg8 : Memref sig .tc .vmem S1x8x128 .f32) (harg8 : arg8.IsWhole) (arg9 : Memref sig .tc .vmem S8x128 .f32) (harg9 : arg9.IsWhole)
    (hc0 : cond0 i) (hc1 : ¬cond1 i) (x0 : Vec F S64x4096 .f32) (x1 x2 : Vec F S8x4096 .f32) (x3 : Vec F S64x4096 .f32) (x4 x5 : Vec F S8x4096 .f32)
    (xo : Vec F S1x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (accNew i x0 x1 x2 x3 x4 x5 (k0_pay3 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%ds, %fs, -, Hs⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfo
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [Ho]
  · iexists _; isplitr
    · ipureintro; exact harg8.read_unread _
    · iexact Ho
  iexists _; isplitr; swap; · iexact Hs
  ipureintro
  sl_unfold_words
  rw [View.read_writes_eq_canon _ _ _ (fun y => ⟨_, List.mem_cons_self, View.mem_set_unit_zero (S := S8x128) hz2 Facts₀.inb_S8x128_S8x128_0_0 y⟩), View.canon_cons_unit_zero hz2]
  simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
  rw [View.readCov_unit_zero (S := S8x128) arg9.view hz2 Facts₀.inb_S8x128_S8x128_0_0]
  rfl

set_option maxHeartbeats 1000000 in
/-- The last step of a half: after the accumulator is brought to `accNew`, the second branch copies it, recast with a
    leading unit axis, over whatever the output block held. -/
theorem bodyLast (c : Dev nD) (i : grid0.Coords) (arg2 : Memref sig .tc .vmem S64x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S64x4096 .f32) (harg5 : arg5.IsWhole) (arg6 : Memref sig .tc .vmem S8x4096 .f32) (harg6 : arg6.IsWhole) (arg7 : Memref sig .tc .vmem S8x4096 .f32) (harg7 : arg7.IsWhole) (arg8 : Memref sig .tc .vmem S1x8x128 .f32) (harg8 : arg8.IsWhole) (arg9 : Memref sig .tc .vmem S8x128 .f32) (harg9 : arg9.IsWhole)
    (hc0 : ¬cond0 i) (hc1 : cond1 i) (x0 : Vec F S64x4096 .f32) (x1 x2 : Vec F S8x4096 .f32) (x3 : Vec F S64x4096 .f32) (x4 x5 : Vec F S8x4096 .f32)
    (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay2 (accNew i x0 x1 x2 x3 x4 x5 s)) ∗ owns (c : Thread nD τ) arg9 fullShare (accNew i x0 x1 x2 x3 x4 x5 s)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, -, Ho⟩, ⟨%fs, %hfs, Hs⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [Ho]
  · iexists _; isplitr; swap; · iexact Ho
    ipureintro
    sl_unfold_words
    rw [View.read_writes_eq_canon _ _ _ (fun y => ⟨_, List.mem_cons_self, View.mem_set_unit_zero (S := S1x8x128) hz3 Facts₀.inb_S1x8x128_S1x8x128_0_0_0 y⟩), View.canon_cons_unit_zero hz3]
    simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
    rw [View.readCov_unit_zero (S := S8x128) arg9.view hz2 Facts₀.inb_S8x128_S8x128_0_0]
    rfl
  iexists _; isplitr; swap; · iexact Hs
  ipureintro
  sl_unfold_words
  rw [View.read_writes_eq_canon _ _ _ (fun y => ⟨_, List.mem_cons_self, View.mem_set_unit_zero (S := S8x128) hz2 Facts₀.inb_S8x128_S8x128_0_0 y⟩), View.canon_cons_unit_zero hz2]
  simp only [View.readAt_eq_ld, harg2.read_unread, harg3.read_unread, harg4.read_unread, harg5.read_unread, harg6.read_unread, harg7.read_unread, harg9.read_unread,
    View.ld_unit_zero (S := S64x4096) hz2, View.ld_unit_zero (S := S8x4096) hz2, View.ld_unit_zero (S := S8x128) hz2]
  rfl

end Cert.KernelIdeal.Hand

end
-- ==== Proof.Shares.lean ====
import proofs.«126209_j52080773431332_2_alg».proof.Proof.Gen.KernelIdeal.Launch
import proofs.«126209_j52080773431332_2_alg».proof.Proof.Gen.KernelIdeal.Points
import proofs.«126209_j52080773431332_2_alg».proof.Proof.LibShareThirds
import Idealize.ShloMosaic.Lib.Pipeline.Regions
import Idealize.ShloMosaic.Lib.Pipeline.Frame
import Idealize.ShloMosaic.Lib.Pipeline.Kit

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows

The region's seven windows stand on three arrays: windows 0, 1, 2 (the 64-row block and the 8-row blocks
holding the row above it and the row below it) all read the first argument; windows 3, 4, 5 read the
channel mean the host computed; window 6 writes the two partial sums. An array read through three windows
is held as three shares that make up the full one. -/

variable (m : (ℓ : Loc nD τ sig) → Buf (Elt F) ℓ)

/-- Core `c`'s buffers at launch, as a valuation; -/
abbrev V₀ (c : Dev nD) : Valuation τ sig (Elt F) := fun b => m (c, b)
/-- after the host operations before the region (the channel mean); -/
abbrev V1 (c : Dev nD) : Valuation τ sig (Elt F) := StableHlo.after hostOps0 (V₀ m c)
/-- and the same read at a TensorCore reference. -/
abbrev V (c : Dev nD) (b : Ref sig .tc) : Buf (Elt F) ((c : Thread nD τ).loc b) := V1 m c (Proc.devRef .tc b)

/-- The share of its array each input window is given: a third each of the two arrays read three ways. -/
def qsh : Fin 7 → PosShare TreeShare := fun
  | 0 => fullShare.left | 1 => fullShare.right.left | 2 => fullShare.right.right
  | 3 => fullShare.left | 4 => fullShare.right.left | 5 => fullShare.right.right
  | 6 => fullShare
  | ⟨_ + 7, h⟩ => absurd h (Nat.not_lt.2 (Nat.le_add_left _ _))

/-- The three distinct buffers behind the seven windows. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg0, main_v2, main_v3] (by decide) (by decide) _

/-- A full share is its left half, and the two halves of its right half. -/
theorem thirds {ℓ : Loc nD τ sig} (f : ℓ.ty.Contents (Elt F)) :
    (ℓ ↦{fullShare} f : sProp 𝕄) ⊣⊢ iprop((ℓ ↦{fullShare.left} f) ∗ (ℓ ↦{fullShare.right.left} f) ∗ (ℓ ↦{fullShare.right.right} f)) :=
  Cert.Lib.pointsTo_thirds f

variable {c : Dev nD} (dat : Dat τ (Elt F) Unit ℕ (UR sig nD τ) ℕ cfg0 c)

/-- The pipeline's seven arrays, window by window, when the input windows hold the shares `qsh`. -/
theorem arrays0_eq (hq : ∀ w, dat.q w = qsh w)
    (Fn : (w : Fin cfg0.W) → Buf (Elt F) ((cfg0.win w).arr.view.loc (c : Thread nD τ))) :
    (dat.arrays Fn : sProp 𝕄)
      = iprop((((c : Thread nD τ).loc main_arg0) ↦{fullShare.left} Fn 0) ∗ (((c : Thread nD τ).loc main_arg0) ↦{fullShare.right.left} Fn 1)
          ∗ (((c : Thread nD τ).loc main_arg0) ↦{fullShare.right.right} Fn 2)
          ∗ (((c : Thread nD τ).loc main_v2) ↦{fullShare.left} Fn 3) ∗ (((c : Thread nD τ).loc main_v2) ↦{fullShare.right.left} Fn 4)
          ∗ (((c : Thread nD τ).loc main_v2) ↦{fullShare.right.right} Fn 5)
          ∗ (((c : Thread nD τ).loc main_v3) ↦{fullShare} Fn 6)) := by
  unfold Pipeline.Dat.arrays
  rw [bigSep_W0]
  have hs : ∀ w, dat.share w = qsh w := fun w => by
    unfold Pipeline.Dat.share; rw [hq w]
    match w with
    | 0 => rfl | 1 => rfl | 2 => rfl | 3 => rfl | 4 => rfl | 5 => rfl | 6 => rfl
  rw [hs 0, hs 1, hs 2, hs 3, hs 4, hs 5, hs 6]
  rw [(arr_whole0 0).set_eq_univ, (arr_whole0 3).set_eq_univ, (arr_whole0 6).set_eq_univ]
  rfl

end Cert.KernelIdeal.Hand

end
-- ==== Proof.RegionRun.lean ====
import proofs.«126209_j52080773431332_2_alg».proof.Proof.Gen.KernelIdeal.Launch
import proofs.«126209_j52080773431332_2_alg».proof.Proof.Gen.KernelIdeal.Points
import proofs.«126209_j52080773431332_2_alg».proof.Proof.Shares
import Idealize.ShloMosaic.Lib.Pipeline.Regions
import Idealize.ShloMosaic.Lib.Pipeline.Frame
import Idealize.ShloMosaic.Lib.Pipeline.Kit

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run of @main, from any proof data that fits

@main is five host operations (the channel mean), the kernel region, and five more host operations (the sum of
the two partial sums). The run below goes segment by segment: a host stretch over the unscoped buffers held
whole; the region, entered by dealing each array read through three windows into three shares and left by
joining the shares again; a second host stretch over the buffers as the region left them. What is asked of
the proof data is collected in `Fits`. -/

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- What the run asks of the proof data: the arrays enter at the buffers' contents; the input windows hold the
    shares `qsh`; nothing is owed and no wait is recorded; the body obligation holds; and the invariant is made of, and gives back, the
    scoped buffers no window stages (the scratch accumulator). -/
structure Fits : Prop where
  hA : ∀ c w, (dats 0 c).A w = V m c (Pipeline.arrRef spec0 w)
  hq : ∀ c w, (dats 0 c).q w = qsh w
  howed : ∀ c t, (dats 0 c).owed t = 0
  hrec : ∀ c t, (dats 0 c).recorded t = Set.univ
  hbody : ∀ c, BodyObligation (dats 0 c) (defs₀ (F := F)) Variants.none () Set.univ
  hin : ∀ c, (Pipeline.scopedRest (Ix := Unit) (Name := ℕ) (U := UR sig nD τ) (Lvl := ℕ) (Val := Elt F) spec0 c : sProp 𝕄) ⊢ (dats 0 c).Φ 0
  hout : ∀ c, (dats 0 c).Φ (Fin.last cfg0.N) ⊢ (Pipeline.scopedRest (Ix := Unit) (Name := ℕ) (U := UR sig nD τ) (Lvl := ℕ) (Val := Elt F) spec0 c : sProp 𝕄)

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- The partial sums' array when the region ends. -/
abbrev fin6 (c : Dev nD) : Buf (Elt F) ((c : Thread nD τ).loc main_v3) := (dats 0 c).arrAt 6 cfg0.N
/-- The buffers when the region ends: the partial sums written, every other buffer as the region found it; -/
abbrev V2 (c : Dev nD) : Valuation τ sig (Elt F) := Function.update (V1 m c) (Proc.devRef .tc main_v3) (fin6 dats c)
/-- and at the end of @main. -/
abbrev V3 (c : Dev nD) : Valuation τ sig (Elt F) := StableHlo.after hostOps1 (V2 m dats c)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The host stretch before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The host stretch after it, over the buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V2 m dats) R

/-- A buffer the region does not write holds in `V2` what it held on entry; -/
theorem V2_of_ne (c : Dev nD) (b : Ref sig .tc) (hb : b ≠ main_v3) : V2 m dats c (Proc.devRef .tc b) = V m c b :=
  Function.update_of_ne (StableHlo.devRef_ne_of_ne hb) _ _
/-- the partial sums' array holds what the region wrote. -/
theorem V2_v3 (c : Dev nD) : V2 m dats c (Proc.devRef .tc main_v3) = fin6 dats c := Function.update_self _ _ _

/-- ENTRY: the unscoped buffers as the first host stretch left them are the seven windows' arrays at their entry
    contents — the two arrays read through three windows dealt into thirds — and the buffers that bypass the region. -/
theorem entry_arrays (h : Fits m dats) (c : Dev nD) :
    (StableHlo.held (c : Thread nD τ) (Pipeline.ucRefs τ sig) (V1 m c) : sProp 𝕄)
      ⊢ iprop((dats 0 c).arrays ((dats 0 c).arrAt · 0)
          ∗ Pipeline.unscopedRest (Ix := Unit) (Name := ℕ) (U := UR sig nD τ) (Lvl := ℕ) spec0 c (V m c)) := by
  rw [show StableHlo.held (c : Thread nD τ) (Pipeline.ucRefs τ sig) (V1 m c) = unscopedBufs c (V m c) from (Pipeline.unscopedBufs_held c _).symm,
    Pipeline.unscopedBufs_split₀ cfgs 0 winFacts₀0.arr_unscoped c, arrBufs0_eq,
    show ((dats 0 c).arrAt · 0) = fun w => V m c (Pipeline.arrRef spec0 w) from funext fun w => h.hA c w,
    arrays0_eq (dats 0 c) (h.hq c)]
  have t0 := (thirds (F := F) (ℓ := (c : Thread nD τ).loc main_arg0) (V m c main_arg0)).1
  have t2 := (thirds (F := F) (ℓ := (c : Thread nD τ).loc main_v2) (V m c main_v2)).1
  iintro ⟨⟨H0, H2, H3⟩, Hrest⟩
  ihave T0 := t0 $$ H0
  ihave T2 := t2 $$ H2
  icases T0 with ⟨A0, A1, A2⟩
  icases T2 with ⟨B0, B1, B2⟩
  isplitr [Hrest]
  · isplitl [A0]; · iexact A0
    isplitl [A1]; · iexact A1
    isplitl [A2]; · iexact A2
    isplitl [B0]; · iexact B0
    isplitl [B1]; · iexact B1
    isplitl [B2]; · iexact B2
    iexact H3
  iexact Hrest

/-- EXIT: the seven windows' arrays at their final contents — an input's as it entered, the thirds joined again — and
    the buffers that bypassed the region are the unscoped buffers at `V2`. -/
theorem exit_held (h : Fits m dats) (c : Dev nD) :
    iprop((dats 0 c).arrays ((dats 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (V2 m dats c) : sProp 𝕄) := by
  have hrest : (Pipeline.unscopedRest (Ix := Unit) (Name := ℕ) (U := UR sig nD τ) (Lvl := ℕ) spec0 c (fun b => V2 m dats c (Proc.devRef .tc b)) : sProp 𝕄)
      = Pipeline.unscopedRest (Ix := Unit) (Name := ℕ) (U := UR sig nD τ) (Lvl := ℕ) spec0 c (V m c) := by
    unfold Pipeline.unscopedRest
    exact bigSep_congr fun b hb => by
      beta_reduce
      rw [V2_of_ne m dats c b fun e => (Finset.mem_sdiff.mp hb).2 (Finset.mem_image.mpr ⟨6, Finset.mem_univ _, e.symm⟩)]
  have hkeep : ∀ w : Fin 7, (cfg0.win w).isOut = false → (dats 0 c).arrAt w cfg0.N = V m c (Pipeline.arrRef spec0 w) := fun w hw =>
    ((dats 0 c).arrAt_in w hw _).trans (h.hA c w)
  rw [show StableHlo.held (c : Thread nD τ) (Pipeline.ucRefs τ sig) (V2 m dats c)
      = unscopedBufs c (fun b => V2 m dats c (Proc.devRef .tc b)) from (Pipeline.unscopedBufs_held c _).symm,
    Pipeline.unscopedBufs_split₀ cfgs 0 winFacts₀0.arr_unscoped c, arrBufs0_eq, hrest, arrays0_eq (dats 0 c) (h.hq c)]
  beta_reduce
  rw [hkeep 0 rfl, hkeep 1 rfl, hkeep 2 rfl, hkeep 3 rfl, hkeep 4 rfl, hkeep 5 rfl,
    V2_of_ne m dats c main_arg0 (by decide), V2_of_ne m dats c main_v2 (by decide), V2_v3]
  iintro ⟨⟨A0, A1, A2, B0, B1, B2, H3⟩, Hrest⟩
  isplitr [Hrest]
  · isplitl [A0 A1 A2]
    · iapply (thirds _).2
      isplitl [A0]; · iexact A0
      isplitl [A1] <;> iassumption
    isplitl [B0 B1 B2]
    · iapply (thirds _).2
      isplitl [B0]; · iexact B0
      isplitl [B1] <;> iassumption
    iexact H3
  iexact Hrest

set_option backward.isDefEq.respectTransparency.types false in
/-- THE REGION: the decided layout (the windows may share arrays), no semaphore of the kernel's own, the body
    obligation; entered from what the first host stretch left, left with the partial sums written. -/
def reg0 (h : Fits m dats) : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none spec0
  hbody c := (h.hbody c).loose
  hwaits := Pipeline.hwaits_of_owed_zero _ _ _ _ L lv 0 h.howed
  pre c := iprop(StableHlo.held (c : Thread nD τ) (Pipeline.ucRefs τ sig) (V1 m c) ∗ R c)
  post c := iprop(StableHlo.held (c : Thread nD τ) (Pipeline.ucRefs τ sig) (V2 m dats c) ∗ R c)
  X c := iprop(emp)
  Y c := iprop(emp)
  Z c := Pipeline.unscopedRest (Ix := Unit) (Name := ℕ) (U := UR sig nD τ) (Lvl := ℕ) spec0 c (V m c)
  hentry c := by
    have hent := entry_arrays m dats h c
    iintro ⟨⟨Hh, HO⟩, -, -⟩
    ihave H := hent $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [h.hrec c 0]; exact Set.mem_univ x)
      rw [h.howed c 0]; iexact HO
    isplitr; · iempintro
    iexact Hrest
  hin c := by
    iintro ⟨-, -, Hr⟩
    iapply (h.hin c); iexact Hr
  hout c := by
    rw [Pipeline.ownSems0_none]
    refine (h.hout c).trans ?_
    iintro Hr
    isplitr; · iempintro
    isplitr; · iempintro
    iexact Hr
  hexit c := by
    iintro ⟨Ha, HO, -, HZ⟩
    imodintro
    isplitr [HO]
    · iapply (exit_held m dats h c)
      isplitl [Ha] <;> iassumption
    · unfold Pipeline.Dat.owesAt Pipeline.owesWithin
      icases HO with ⟨%W, -, HO⟩; iexists W
      rw [h.howed c (Fin.last _)]; iexact HO

/-- @main as the list of the three. -/
abbrev segs (h : Fits m dats) : List (Pipeline.Seg (pcfgs (F := F)) adm dats () defs₀ 𝒱₀ L lv) :=
  [.host (seg0 m), .region (reg0 m dats h), .host (seg1 m dats)]

set_option backward.isDefEq.respectTransparency.types false in
/-- At the compiled mesh, from any memory with zero counters: every weakly fair execution of @main on the
    TensorCores terminates, nothing faulting, and every final state holds each unscoped buffer at `V3` — the
    host operations' results over the buffers as the region left them. -/
theorem run_main (h : Fits m dats) : θ_run defs (onTc (τ := τ) (main (F := F))) (s₀ m ρ)
    (fun r => ∀ c : Dev nD, ∀ b ∈ Pipeline.ucRefs τ sig, r.2.mem ((c : Dev nD), b) = V3 m dats c b) :=
  Pipeline.θ_run_regions_kit (pcfgs (F := F)) adm dats () cellOf_inj emb₁ defs₀ 𝒱₀ L lv m ρ main (segs m dats h)
    (fun c Q => by rw [main_segs adm dats () 𝒱₀ L lv (seg0 m) (seg1 m dats) (reg0 m dats h) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V3 m dats c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V3 m dats c b)
    (hfin := fun c s' => by
      unfold StableHlo.held
      iintro ⟨Hh, HSI⟩
      imodintro
      iapply (pointsTo_read_all (Pipeline.ucRefs τ sig) (fun b => ((c : Dev nD), b)) (V3 m dats c) s')
      isplitl [Hh] <;> iassumption)
    (hQ := fun _ h => h)

end Cert.KernelIdeal.Hand

end
-- ==== Proof.Data.lean ====
import proofs.«126209_j52080773431332_2_alg».proof.Proof.BodyRun
import proofs.«126209_j52080773431332_2_alg».proof.Proof.RegionRun
import proofs.«126209_j52080773431332_2_alg».proof.Proof.Gen.KernelIdeal.Points
import proofs.«126209_j52080773431332_2_alg».proof.Proof.Gen.KernelIdeal.Launch
import Idealize.ShloMosaic.Lib.Pipeline.Kit
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

/-! ## The proof data

The grid's 64 points are two halves of 32 steps. At a half's first step the body zeroes the accumulator before adding the
block's sum; at its last it copies the accumulator to the half's output block. So the accumulator after point `n` is the
block sums of the half's steps up to `n`, and the output block written back at a half's last point is that half's sum in
every entry. -/

variable (m : (ℓ : Loc nD τ sig) → Buf (Elt F) ℓ)

/-- The first branch is taken exactly at the first step of a half; -/
theorem hcond0 : ∀ t : Fin cfg0.N, cond0 (grid0.coords t) ↔ t.val % 32 = 0 :=
  (by decide +kernel : ∀ t : Fin grid0.N, cond0 (grid0.coords t) ↔ t.val % 32 = 0)
/-- the second exactly at the last. -/
theorem hcond1 : ∀ t : Fin cfg0.N, cond1 (grid0.coords t) ↔ t.val % 32 = 31 :=
  (by decide +kernel : ∀ t : Fin grid0.N, cond1 (grid0.coords t) ↔ t.val % 32 = 31)
/-- The output window is idle at every other step, -/
theorem idle6 : ∀ t : Fin cfg0.N, ¬ t.val % 32 = 31 → cfg0.idle 6 (grid0.coords t) = true :=
  (by decide +kernel : ∀ t : Fin grid0.N, ¬ t.val % 32 = 31 → cfg0.idle 6 (grid0.coords t) = true)
/-- live at the last, -/
theorem live6 : ∀ t : Fin cfg0.N, t.val % 32 = 31 → cfg0.idle 6 (grid0.coords t) = false :=
  (by decide +kernel : ∀ t : Fin grid0.N, t.val % 32 = 31 → cfg0.idle 6 (grid0.coords t) = false)
/-- and not written back where it is idle. -/
theorem noFlush6 (t : Fin cfg0.N) (h : ¬ t.val % 32 = 31) : (cfg0.win 6).flush t = false := by
  cases hf : (cfg0.win 6).flush t with
  | false => rfl
  | true => exact absurd ((flush0_6 t).mp hf) h

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a position (positions past the grid wrap; none is ever used). -/
def pt (n : ℕ) : Fin cfg0.N := ⟨n % 64, lt_of_lt_of_eq (Nat.mod_lt _ (by decide)) N_0.symm⟩

theorem pt_val (t : Fin cfg0.N) : pt t.val = t :=
  Fin.ext (Nat.mod_eq_of_lt (lt_of_lt_of_eq t.isLt N_0))

/-- One point's update of the accumulator, from the point's six blocks. -/
def step (c : Dev nD) (t : Fin cfg0.N) (s : Vec F S8x128 .f32) : Vec F S8x128 .f32 :=
  accNew (grid0.coords t) (iblk m c 0 t) (iblk m c 1 t) (iblk m c 2 t) (iblk m c 3 t) (iblk m c 4 t) (iblk m c 5 t) s

/-- The accumulator after the point at position `n`: reset at a half's first step, carried otherwise. -/
def accAt (c : Dev nD) : ℕ → Vec F S8x128 .f32
  | 0 => step m c (pt 0) (k0_pay3 (F := F))
  | n + 1 => step m c (pt (n + 1)) (if (n + 1) % 32 = 0 then k0_pay3 (F := F) else accAt c n)

/-- The same at a point: one step from the zero vector or from the accumulator the point before left. -/
theorem accAt_eq (c : Dev nD) (t : Fin cfg0.N) :
    accAt m c t.val = step m c t (if t.val % 32 = 0 then k0_pay3 (F := F) else accAt m c (t.val - 1)) := by
  obtain ⟨n, hn⟩ := t
  cases n with
  | zero => show step m c (pt 0) _ = _; rw [show pt 0 = (⟨0, hn⟩ : Fin cfg0.N) from pt_val ⟨0, hn⟩]; rfl
  | succ n => show step m c (pt (n + 1)) _ = _; rw [show pt (n + 1) = (⟨n + 1, hn⟩ : Fin cfg0.N) from pt_val ⟨n + 1, hn⟩]; rfl

/-- The scratch accumulator, the one scoped buffer no window stages. -/
abbrev scM : Memref sig .tc .vmem S8x128 .f32 := Memref.whole cc0_scratch0

/-- The invariant before position `n`: the accumulator at anything before the first point, then at what the point
    before left. -/
def PhiS (c : Dev nD) : ℕ → sProp 𝕄
  | 0 => Pipeline.scopedRest (Ix := Unit) (Name := ℕ) (U := UR sig nD τ) (Lvl := ℕ) (Val := Elt F) spec0 c
  | n + 1 => owns (c : Thread nD τ) scM fullShare (accAt m c n)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (accAt m c t.val)
  Φ t := PhiS m c t.val
  q := qsh
  owed _ := 0

theorem A_eq (c : Dev nD) (w : Fin cfg0.W) : (dats m 0 c).A w = V m c (Pipeline.arrRef spec0 w) := by
  dsimp only [dats]

theorem after_in (c : Dev nD) (t : Fin cfg0.N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t := by
  refine ⟨?_, ?_, ?_, ?_, ?_, ?_⟩ <;> dsimp only [dats]
theorem after_out (c : Dev nD) (t : Fin cfg0.N) : (dats m 0 c).after 6 t = k0_pay2 (accAt m c t.val) := by dsimp only [dats]

/-- Every input window is fetched at every point: its staging buffer holds its block when the body starts. -/
theorem before0 (c : Dev nD) (t : Fin cfg0.N) (d) : (dats m 0 c).before 0 t d = iblk m c 0 t := by
  rw [(dats m 0 c).before_fetched 0 t (fetch0_0 t) d]
  unfold Dat.fetched Dat.blockOf iblk
  rw [A_eq]
  rfl
theorem before1 (c : Dev nD) (t : Fin cfg0.N) (d) : (dats m 0 c).before 1 t d = iblk m c 1 t := by
  rw [(dats m 0 c).before_fetched 1 t (fetch0_1 t) d]
  unfold Dat.fetched Dat.blockOf iblk
  rw [A_eq]
  rfl
theorem before2 (c : Dev nD) (t : Fin cfg0.N) (d) : (dats m 0 c).before 2 t d = iblk m c 2 t := by
  rw [(dats m 0 c).before_fetched 2 t (fetch0_2 t) d]
  unfold Dat.fetched Dat.blockOf iblk
  rw [A_eq]
  rfl
theorem before3 (c : Dev nD) (t : Fin cfg0.N) (d) : (dats m 0 c).before 3 t d = iblk m c 3 t := by
  rw [(dats m 0 c).before_fetched 3 t (fetch0_3 t) d]
  unfold Dat.fetched Dat.blockOf iblk
  rw [A_eq]
  rfl
theorem before4 (c : Dev nD) (t : Fin cfg0.N) (d) : (dats m 0 c).before 4 t d = iblk m c 4 t := by
  rw [(dats m 0 c).before_fetched 4 t (fetch0_4 t) d]
  unfold Dat.fetched Dat.blockOf iblk
  rw [A_eq]
  rfl
theorem before5 (c : Dev nD) (t : Fin cfg0.N) (d) : (dats m 0 c).before 5 t d = iblk m c 5 t := by
  rw [(dats m 0 c).before_fetched 5 t (fetch0_5 t) d]
  unfold Dat.fetched Dat.blockOf iblk
  rw [A_eq]
  rfl

end Cert.KernelIdeal.Hand

end
-- ==== Proof.Oblig.lean ====
import proofs.«126209_j52080773431332_2_alg».proof.Proof.Data
import proofs.«126209_j52080773431332_2_alg».proof.Proof.Gen.KernelIdeal.Launch
import Idealize.ShloMosaic.Lib.Pipeline.Kit
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

/-! ## The body obligation

At every point the six input staging buffers hold their blocks, the body runs as its step's case says, and what it
leaves is what the proof data names. -/

variable (m : (ℓ : Loc nD τ sig) → Buf (Elt F) ℓ)

/-- Whatever the invariant holds of the accumulator, it holds the accumulator at something. -/
theorem PhiS_any (c : Dev nD) (n : ℕ) : PhiS m c n ⊢ iprop(∃ d, owns (c : Thread nD τ) scM fullShare d) := by
  cases n with
  | zero =>
    show (Pipeline.scopedRest (Ix := Unit) (Name := ℕ) (U := UR sig nD τ) (Lvl := ℕ) (Val := Elt F) spec0 c : sProp 𝕄) ⊢ _
    rw [scopedRest0_eq]; simp only [scM, owns_whole]; exact .rfl
  | succ n => show owns (c : Thread nD τ) scM fullShare (accAt m c n) ⊢ _; iintro H; iexists _; iexact H

/-- After a point that is not a half's first, the invariant before the next holds the accumulator at that point's. -/
theorem PhiS_pos (c : Dev nD) (n : ℕ) (hn : n ≠ 0) : PhiS m c n = owns (c : Thread nD τ) scM fullShare (accAt m c (n - 1)) := by
  cases n with
  | zero => exact absurd rfl hn
  | succ n => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c t, before1 m c t, before2 m c t, before3 m c t, before4 m c t, before5 m c t]
  rw [show (dats m 0 c).owesAt () t.succ = (dats m 0 c).owesAt () t.castSucc from rfl]
  rw [show (dats m 0 c).Φ t.succ = owns (c : Thread nD τ) scM fullShare (accAt m c t.val) from rfl]
  rw [show (dats m 0 c).Φ t.castSucc = PhiS m c t.val from rfl]
  rw [show (dats m 0 c).leavesExact 0 t = owns (c : Thread nD τ) (st0_0 t) fullShare (iblk m c 0 t) from by
    unfold Dat.leavesExact; rw [show cfg0.idle 0 (cfg0.grid.coords t) = false from rfl, (after_in m c t).1]]
  rw [show (dats m 0 c).leavesExact 1 t = owns (c : Thread nD τ) (st0_1 t) fullShare (iblk m c 1 t) from by
    unfold Dat.leavesExact; rw [show cfg0.idle 1 (cfg0.grid.coords t) = false from rfl, (after_in m c t).2.1]]
  rw [show (dats m 0 c).leavesExact 2 t = owns (c : Thread nD τ) (st0_2 t) fullShare (iblk m c 2 t) from by
    unfold Dat.leavesExact; rw [show cfg0.idle 2 (cfg0.grid.coords t) = false from rfl, (after_in m c t).2.2.1]]
  rw [show (dats m 0 c).leavesExact 3 t = owns (c : Thread nD τ) (st0_3 t) fullShare (iblk m c 3 t) from by
    unfold Dat.leavesExact; rw [show cfg0.idle 3 (cfg0.grid.coords t) = false from rfl, (after_in m c t).2.2.2.1]]
  rw [show (dats m 0 c).leavesExact 4 t = owns (c : Thread nD τ) (st0_4 t) fullShare (iblk m c 4 t) from by
    unfold Dat.leavesExact; rw [show cfg0.idle 4 (cfg0.grid.coords t) = false from rfl, (after_in m c t).2.2.2.2.1]]
  rw [show (dats m 0 c).leavesExact 5 t = owns (c : Thread nD τ) (st0_5 t) fullShare (iblk m c 5 t) from by
    unfold Dat.leavesExact; rw [show cfg0.idle 5 (cfg0.grid.coords t) = false from rfl, (after_in m c t).2.2.2.2.2]]
  rw [accAt_eq m c t]; unfold step
  by_cases h0 : t.val % 32 = 0
  · have h1 : ¬ t.val % 32 = 31 := by omega
    rw [if_pos h0, Dat.leavesExact_idle (dats m 0 c) 6 t (idle6 t h1) (noFlush6 t h1)]
    have hany := PhiS_any m c t.val
    iintro ⟨HS, Ho, ⟨%d0, H0⟩, ⟨%d1, H1⟩, ⟨%d2, H2⟩, ⟨%d3, H3⟩, ⟨%d4, H4⟩, ⟨%d5, H5⟩, ⟨%d6, H6⟩⟩
    ihave HS' := hany $$ HS
    iapply (bodyFirst c (grid0.coords t) _ _ _ _ _ _ _ _ _ _ _ _ _ _ _ _ ((hcond0 t).mpr h0) (fun h => h1 ((hcond1 t).mp h))
      (iblk m c 0 t) (iblk m c 1 t) (iblk m c 2 t) (iblk m c 3 t) (iblk m c 4 t) (iblk m c 5 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS']; · iexact HS'
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hpos : t.val ≠ 0 := fun h => h0 (by rw [h])
    rw [if_neg h0, PhiS_pos m c t.val hpos]
    by_cases h1 : t.val % 32 = 31
    · rw [show (dats m 0 c).leavesExact 6 t = owns (c : Thread nD τ) (st0_6 t) fullShare ((dats m 0 c).after 6 t) from by
        unfold Dat.leavesExact; rw [live6 t h1], after_out m c t, accAt_eq m c t, if_neg h0]
      unfold step
      iintro ⟨HS, Ho, ⟨%d0, H0⟩, ⟨%d1, H1⟩, ⟨%d2, H2⟩, ⟨%d3, H3⟩, ⟨%d4, H4⟩, ⟨%d5, H5⟩, ⟨%d6, H6⟩⟩
      iapply (bodyLast c (grid0.coords t) _ _ _ _ _ _ _ _ _ _ _ _ _ _ _ _ (fun h => h0 ((hcond0 t).mp h)) ((hcond1 t).mpr h1)
        (iblk m c 0 t) (iblk m c 1 t) (iblk m c 2 t) (iblk m c 3 t) (iblk m c 4 t) (iblk m c 5 t) (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle6 t h1) (noFlush6 t h1)]
      iintro ⟨HS, Ho, ⟨%d0, H0⟩, ⟨%d1, H1⟩, ⟨%d2, H2⟩, ⟨%d3, H3⟩, ⟨%d4, H4⟩, ⟨%d5, H5⟩, ⟨%d6, H6⟩⟩
      iapply (bodyMid c (grid0.coords t) _ _ _ _ _ _ _ _ _ _ _ _ _ _ _ _ (fun h => h0 ((hcond0 t).mp h)) (fun h => h1 ((hcond1 t).mp h))
        (iblk m c 0 t) (iblk m c 1 t) (iblk m c 2 t) (iblk m c 3 t) (iblk m c 4 t) (iblk m c 5 t) ((dats m 0 c).before 6 t d6) (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- These proof data fit the run of @main. -/
theorem fits : Fits m (dats m) where
  hA := A_eq m
  hq _ _ := rfl
  howed _ _ := rfl
  hrec _ _ := rfl
  hbody := body_obligation m
  hin _ := .rfl
  hout c := by
    show owns (c : Thread nD τ) scM fullShare (accAt m c 63) ⊢ _
    rw [scopedRest0_eq]; simp only [scM, owns_whole]
    iintro H; iexists _; iexact H

end Cert.KernelIdeal.Hand

end
-- ==== Proof.KKeep.lean ====
import proofs.«126209_j52080773431332_2_alg».proof.Proof.Shares

/-! # The host operations around the region never write the two arguments

Whatever the float operations mean, the five host operations before the region write the zero constant, the channel
sum, the constant 3, its broadcast and the quotient; the five after it write the two cut-out entries, their two
scalars and the sum. Neither stretch writes an argument, so each argument holds afterwards what it held before. -/

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

/-- No host operation before the region writes the first argument, -/
theorem keepV_arg0 (m : (ℓ : Loc nD τ sig) → Buf (Elt F) ℓ) (c : Dev nD) :
    V (F := F) m c main_arg0 = m ((c : Thread nD τ).loc main_arg0) := by
  dsimp only [V, V1, hostOps0]
  after_results

/-- nor the second. -/
theorem keepV_arg1 (m : (ℓ : Loc nD τ sig) → Buf (Elt F) ℓ) (c : Dev nD) :
    V (F := F) m c main_arg1 = m ((c : Thread nD τ).loc main_arg1) := by
  dsimp only [V, V1, hostOps0]
  after_results

/-- The host operations after the region write neither argument. -/
theorem keepTail (W : Valuation τ sig (Elt F)) (b : Ref sig .tc) (hb : b = main_arg0 ∨ b = main_arg1) :
    StableHlo.after (hostOps1 (F := F)) W (Proc.devRef .tc b) = W (Proc.devRef .tc b) := by
  rcases hb with rfl | rfl
  · dsimp only [hostOps1]
    after_results
  · dsimp only [hostOps1]
    after_results

end Cert.KernelIdeal.Hand

end
-- ==== Proof.FrameOf.lean ====
import proofs.«126209_j52080773431332_2_alg».proof.Proof.Oblig
import proofs.«126209_j52080773431332_2_alg».proof.Proof.KKeep
import proofs.«126209_j52080773431332_2_alg».proof.Proof.Gen.KernelIdeal.Launch
import Idealize.ShloMosaic.Lib.Pipeline.Kit
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

/-! ## The frame

No host operation writes an argument and no window writes back into one, so the run's final state holds both as
launched. -/

variable (m : (ℓ : Loc nD τ sig) → Buf (Elt F) ℓ) (ρ : Dev nD → PrngReg)

/-- An unscoped reference of the TensorCore is among the buffers the run tracks. -/
theorem mem_uc (b : Ref sig .tc) (hb : (Proc.devRef (τ := τ) .tc b).isScoped = false) : Proc.devRef .tc b ∈ Pipeline.ucRefs τ sig :=
  Finset.mem_filter.mpr ⟨Finset.mem_map.mpr ⟨b, Finset.mem_univ _, rfl⟩, by rw [hb]; exact Bool.false_ne_true⟩

/-- The first argument ends as launched: neither host stretch nor the region writes it; -/
theorem kept0 (c : Dev nD) : V3 m (dats m) c (Proc.devRef .tc main_arg0) = m ((c : Thread nD τ).loc main_arg0) :=
  (keepTail _ main_arg0 (.inl rfl)).trans ((V2_of_ne m (dats m) c main_arg0 (by decide)).trans (keepV_arg0 m c))
/-- so does the second. -/
theorem kept1 (c : Dev nD) : V3 m (dats m) c (Proc.devRef .tc main_arg1) = m ((c : Thread nD τ).loc main_arg1) :=
  (keepTail _ main_arg1 (.inr rfl)).trans ((V2_of_ne m (dats m) c main_arg1 (by decide)).trans (keepV_arg1 m c))

/-- THE FRAME: every weakly fair execution of @main terminates, nothing faulting, with both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 rfl)).trans (kept0 m c), (h c _ (mem_uc main_arg1 rfl)).trans (kept1 m c)⟩)
    (run_main m ρ (dats m) (fits m))

end Cert.KernelIdeal.Hand

end
-- ==== Proof.OutArray.lean ====
import proofs.«126209_j52080773431332_2_alg».proof.Proof.Data
import Idealize.ShloMosaic.Lib.ValueIdx
import proofs.«126209_j52080773431332_2_alg».proof.Proof.Gen.KernelIdeal.Launch
import Idealize.ShloMosaic.Lib.Pipeline.Kit
import Idealize.ShloMosaic.Lib.Pipeline.FrameBody
import Idealize.ShloMosaic.Lib.Pipeline.Frame
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)
open Idealize.ShloMosaic.ValueIdx

/-! ## The partial sums' array after the region

The output window's block at a point is the slab `h` of the [2, 8, 128] array, `h` the point's half, and it is written
back at the half's last point only. So the two written blocks are the two slabs, and entry `(h, a, b)` ends at entry
`(a, b)` of the accumulator after point `32 h + 31`. -/

variable (m : (ℓ : Loc nD τ sig) → Buf (Elt F) ℓ)

/-- The output window's block index, decided over the grid: the half on the leading axis, zero on the others. -/
theorem idx6 : ∀ t : Fin cfg0.N, win0_6.index t (0 : Fin 3) = t.val / 32 ∧ win0_6.index t (1 : Fin 3) = 0 ∧ win0_6.index t (2 : Fin 3) = 0 :=
  (by decide +kernel : ∀ t : Fin grid0.N, win0_6.index t (0 : Fin 3) = t.val / 32 ∧ win0_6.index t (1 : Fin 3) = 0 ∧ win0_6.index t (2 : Fin 3) = 0)

/-- The recast with a leading unit axis reads its operand at the two trailing coordinates. -/
theorem pay2_apply (v : Vec F S8x128 .f32) (j : S1x8x128.Idx) : k0_pay2 v j = v (fun a => j a.succ) := by
  unfold k0_pay2
  exact shapeCast_addUnit_apply ![8, 128] v _ j

/-- What the array ends holding: each half's final accumulator in the half's slab. -/
def G6 (c : Dev nD) : S2x8x128.Idx → Elt F .f32 := fun i => accAt m c (32 * (i 0).val + 31) (fun a => i a.succ)

/-- What a half's last point writes back is its slab of `G6`. -/
theorem flushed6_eq (c : Dev nD) (t : Fin cfg0.N) (hf : (cfg0.win 6).flush t = true) :
    (dats m 0 c).flushed 6 t = ((cfg0.win 6).blk t).view.read (Elt F) (G6 m c) := by
  have h31 : t.val % 32 = 31 := (flush0_6 t).mp hf
  obtain ⟨e0, e1, e2⟩ := idx6 t
  show (cfg0.win 6).cut (grid0.coords t) ((dats m 0 c).after 6 t) = _
  rw [after_out]
  funext j
  show k0_pay2 (accAt m c t.val) j = G6 m c (((cfg0.win 6).blk t).view.emb j)
  rw [pay2_apply]
  unfold G6
  have hj0 : (j 0).val < 1 := (j 0).isLt
  have hrow : 32 * ((((cfg0.win 6).blk t).view.emb j) 0).val + 31 = t.val := by
    show 32 * (win0_6.index t (0 : Fin 3) * 1 + 1 * (j 0).val) + 31 = t.val
    omega
  rw [hrow]
  congr 1
  funext a
  apply Fin.ext
  match a with
  | ⟨0, _⟩ => show (j 1).val = win0_6.index t (1 : Fin 3) * 8 + 1 * (j 1).val; omega
  | ⟨1, _⟩ => show (j 2).val = win0_6.index t (2 : Fin 3) * 128 + 1 * (j 2).val; omega

/-- An index of the array is in point `t`'s block iff each coordinate is in the block's range on its axis. -/
theorem mem_blk6 (t : Fin cfg0.N) (i : S2x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v3).slice (win0_6.rect t)).set ↔ _
  rw [View.set_slice_whole, Rect.mem_set_unit]
  exact Iff.rfl

/-- Every entry is in the block of its half's last point. -/
theorem cover6 (i : S2x8x128.Idx) : ∃ t : Fin cfg0.N, (cfg0.win 6).flush t = true ∧ i ∈ ((cfg0.win 6).blk t).view.set := by
  have hi0 : (i 0).val < 2 := (i 0).isLt
  have hi1 : (i 1).val < 8 := (i 1).isLt
  have hi2 : (i 2).val < 128 := (i 2).isLt
  refine ⟨⟨32 * (i 0).val + 31, lt_of_lt_of_eq (by omega) N_0.symm⟩, (flush0_6 _).mpr (by show (32 * (i 0).val + 31) % 32 = 31; omega), ?_⟩
  obtain ⟨e0, e1, e2⟩ := idx6 ⟨32 * (i 0).val + 31, lt_of_lt_of_eq (by omega) N_0.symm⟩
  have e0' : win0_6.index ⟨32 * (i 0).val + 31, lt_of_lt_of_eq (by omega) N_0.symm⟩ (0 : Fin 3) = (i 0).val := by rw [e0]; show (32 * (i 0).val + 31) / 32 = (i 0).val; omega
  rw [mem_blk6]
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 8 ≤ (i 1).val ∧ (i 1).val < win0_6.index _ (1 : Fin 3) * 8 + 8; omega
  | ⟨2, _⟩ => show win0_6.index _ (2 : Fin 3) * 128 ≤ (i 2).val ∧ (i 2).val < win0_6.index _ (2 : Fin 3) * 128 + 128; omega

/-- THE ARRAY after the region. -/
theorem final6 (c : Dev nD) : (dats m 0 c).arrAt 6 cfg0.N = G6 m c :=
  (dats m 0 c).arrAt_eq_of_cover 6 (G6 m c) (fun t hf => flushed6_eq m c t hf) (cover6)

end Cert.KernelIdeal.Hand

end
-- ==== Proof.Spec.lean ====
import Idealize.ShloMosaic.PureOps.Ideal
import Idealize.ShloMosaic.Lib.ValueIdx

/-! # The quantity both programs compute

For a transmission map `T` and a guide image `G`, both 4096 × 4096 over the extended reals, the result is

    ∑ over pixels (i, j) of  |∇ log clip(T)|² (i, j) · σ((0.1 − |∇G| (i, j)) · 48)

where `clip` clamps to [1e-7, 1], the gradient is the central difference `(x(i, j+1) − x(i, j−1), x(i−1, j) − x(i+1, j))`
with zero outside the image, `|·|²` is the sum of the two squares, and `σ` is the logistic function. The guide
is the mean of an image's three channels. Every constant is the value of its single-precision word. -/

noncomputable section

namespace Cert.EdgeEnergy

open Idealize.ShloMosaic

/-- An image: a value at each (row, column). -/
abbrev Img := Fin 4096 → Fin 4096 → EReal

/-- The lower clamp, the single-precision word nearest 1e-7. -/
def eps : EReal := Ideal.ofBits .f32 0x33D6BF95#32
/-- The upper clamp, 1. -/
def one : EReal := Ideal.ofBits .f32 0x3F800000#32
/-- The offset, the single-precision word nearest 0.1. -/
def c01 : EReal := Ideal.ofBits .f32 0x3DCCCCCD#32
/-- The scale, 48. -/
def c48 : EReal := Ideal.ofBits .f32 0x42400000#32
/-- The channel count, 3. -/
def three : EReal := Ideal.ofBits .f32 0x40400000#32

/-- The pixel above, zero above the first row; -/
def up (X : Img) (i j : Fin 4096) : EReal := if h : 0 < i.val then X ⟨i.val - 1, by omega⟩ j else 0
/-- below, zero below the last row; -/
def down (X : Img) (i j : Fin 4096) : EReal := if h : i.val + 1 < 4096 then X ⟨i.val + 1, h⟩ j else 0
/-- to the left, zero left of the first column; -/
def left (X : Img) (i j : Fin 4096) : EReal := if h : 0 < j.val then X i ⟨j.val - 1, by omega⟩ else 0
/-- to the right, zero right of the last column. -/
def right (X : Img) (i j : Fin 4096) : EReal := if h : j.val + 1 < 4096 then X i ⟨j.val + 1, h⟩ else 0

/-- The horizontal central difference, -/
def dx (X : Img) (i j : Fin 4096) : EReal := right X i j - left X i j
/-- the vertical one, -/
def dy (X : Img) (i j : Fin 4096) : EReal := up X i j - down X i j
/-- and the squared norm of the gradient. -/
def gradSq (X : Img) (i j : Fin 4096) : EReal := dx X i j * dx X i j + dy X i j * dy X i j

/-- The logarithm of the map clamped to [eps, 1]. -/
def logClip (T : Img) : Img := fun i j => Ideal.log (min one (max eps (T i j)))
/-- The edge-aware weight: near 1 where the guide is flat, near 0 across its edges. -/
def weight (G : Img) (i j : Fin 4096) : EReal := Ideal.logistic ((c01 - Ideal.sqrt (gradSq G i j)) * c48)
/-- One pixel's term, -/
def pixel (T G : Img) (i j : Fin 4096) : EReal := gradSq (logClip T) i j * weight G i j
/-- and the sum over the image. -/
def total (T G : Img) : EReal := ∑ i : Fin 4096, ∑ j : Fin 4096, pixel T G i j

/-- The mean of three channels: their sum (from zero) over 3. -/
def chanMean (L : Fin 4096 → Fin 4096 → Fin 3 → EReal) : Img := fun i j => Ideal.div (0 + ∑ k : Fin 3, L i j k) three

end Cert.EdgeEnergy

end
-- ==== Proof.KHost.lean ====
import proofs.«126209_j52080773431332_2_alg».proof.Proof.Shares
import proofs.«126209_j52080773431332_2_alg».proof.Proof.Spec
import Idealize.ShloMosaic.Lib.StableHlo.Run
import Idealize.ShloMosaic.Lib.Pipeline.Value
import Idealize.ShloMosaic.Lib.IdealHost
import Idealize.ShloMosaic.PureOps.Ideal.Laws

/-! # The host operations around the kernel region, read at an index

Before the region the host computes the channel mean — each pixel's three channels summed from zero, over 3 — and
leaves the two arguments as they were. After it, the host adds the first entries of the region's two partial sums. -/

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-- The sum of a pixel's three channels from the zero constant, divided by the broadcast constant 3, is the
    specification's channel mean. -/
theorem chanMean_read (x1 : S4096x4096x3.Idx → EReal) (i j : Fin 4096) :
    (Host.divf (F := Ideal) (φ := .f32) (Host.reduceAdd x1 (constant (F := Ideal) S_ .f32 0x00000000#32) reducesTo_S4096x4096x3_S4096x4096_d2 h_S_)
        (broadcastInDim S4096x4096 ![] bcast_S_S4096x4096 (constant (F := Ideal) S_ .f32 0x40400000#32))) (ix2 i j)
      = Cert.EdgeEnergy.chanMean (fun i j k => x1 (ix3 i j k)) i j := by
  have hsum : Host.reduceAdd x1 (constant (F := Ideal) S_ .f32 0x00000000#32) reducesTo_S4096x4096x3_S4096x4096_d2 h_S_ (ix2 i j)
      = 0 + ∑ k : Fin 3, x1 (ix3 i j k) := by
    simp only [Host.reduceAdd, Ideal.hostReduceAdd_def]
    rw [Ideal.hostReduceAdd_single reducesTo_S4096x4096x3_S4096x4096_d2 (by decide)]
    refine congrArg₂ (· + ·) Ideal.ofBits_zero_f32 (Finset.sum_congr rfl fun k _ => ?_)
    exact congrArg x1 (funext fun a => Fin.ext (by match a with | ⟨0, _⟩ => rfl | ⟨1, _⟩ => rfl | ⟨2, _⟩ => rfl))
  have hthree : broadcastInDim S4096x4096 ![] bcast_S_S4096x4096 (constant (F := Ideal) S_ .f32 0x40400000#32) (ix2 i j)
      = Cert.EdgeEnergy.three :=
    broadcastInDim_apply _ bcast_S_S4096x4096 _ (ix2 i j) ix0 (fun a => a.elim0)
  show Ideal.div _ _ = Ideal.div _ _
  rw [hsum, hthree]

section Prefix
variable (m : (ℓ : Loc nD τ sig) → Buf (Elt Ideal) ℓ) (c : Dev nD)

/-- No host operation before the region writes the first argument, -/
theorem V_arg0 : V (F := Ideal) m c main_arg0 = m ((c : Thread nD τ).loc main_arg0) := by
  dsimp only [V, V1, hostOps0]
  after_results

/-- nor the second. -/
theorem V_arg1 : V (F := Ideal) m c main_arg1 = m ((c : Thread nD τ).loc main_arg1) := by
  dsimp only [V, V1, hostOps0]
  after_results

/-- The array the host hands the region: the sum over the channels from the zero constant, divided by the broadcast 3. -/
theorem V_v2_term : (V (F := Ideal) m c main_v2 : S4096x4096.Idx → EReal)
    = Host.divf (Host.reduceAdd (m ((c : Thread nD τ).loc main_arg1)) (constant (F := Ideal) S_ .f32 0x00000000#32) reducesTo_S4096x4096x3_S4096x4096_d2 h_S_)
        (broadcastInDim S4096x4096 ![] bcast_S_S4096x4096 (constant (F := Ideal) S_ .f32 0x40400000#32)) := by
  dsimp only [V, V1, hostOps0]
  after_results

/-- Read at a pixel it is the specification's channel mean of the second argument. -/
theorem V_v2 (i j : Fin 4096) :
    V (F := Ideal) m c main_v2 (ValueIdx.ix2 i j)
      = Cert.EdgeEnergy.chanMean (fun i j k => m ((c : Thread nD τ).loc main_arg1) (ValueIdx.ix3 i j k)) i j := by
  rw [V_v2_term]
  exact chanMean_read _ i j

end Prefix

/-! ## After the region -/

/-- One entry cut out of the partial sums — the window of size one at `(a, 0, 0)` — is that entry, -/
theorem slice_entry {α : Type} (x : S2x8x128.Idx → α) (a : Fin 2) (off : Fin 3 → Nat)
    (hoff0 : off 0 = a.val) (hoff1 : off 1 = 0) (hoff2 : off 2 = 0) (h : S2x8x128.Slices off S1x1x1) (j : S1x1x1.Idx) :
    extractStridedSlice S1x1x1 off x h j = x (ix3 a (0 : Fin 8) (0 : Fin 128)) := by
  have h0 : (j 0).val < 1 := (j 0).isLt
  have h1 : (j 1).val < 1 := (j 1).isLt
  have h2 : (j 2).val < 1 := (j 2).isLt
  refine extractStridedSlice_apply off x h j (ix3 a (0 : Fin 8) (0 : Fin 128)) fun b => ?_
  match b with
  | ⟨0, _⟩ => show a.val = off 0 + (j 0).val; omega
  | ⟨1, _⟩ => show 0 = off 1 + (j 1).val; omega
  | ⟨2, _⟩ => show 0 = off 2 + (j 2).val; omega

/-- and so is the scalar it is reshaped to. -/
theorem first_entry {α : Type} (x : S2x8x128.Idx → α) (a : Fin 2) (off : Fin 3 → Nat)
    (hoff0 : off 0 = a.val) (hoff1 : off 1 = 0) (hoff2 : off 2 = 0) (h : S2x8x128.Slices off S1x1x1) (i : S_.Idx) :
    shapeCast S_ (extractStridedSlice S1x1x1 off x h) shapeCasts_S1x1x1_S_ i = x (ix3 a (0 : Fin 8) (0 : Fin 128)) := by
  unfold shapeCast
  exact slice_entry x a off hoff0 hoff1 hoff2 h _

section Tail
variable (W : Valuation τ sig (Elt Ideal))

/-- The result after the region's host operations: the two first entries, each cut out and reshaped to a scalar, added. -/
theorem tail_v8_term : (StableHlo.after (hostOps1 (F := Ideal)) W (Proc.devRef .tc main_v8) : S_.Idx → EReal)
    = addf (F := Ideal) (φ := .f32) (shapeCast S_ (extractStridedSlice S1x1x1 ![0, 0, 0] (W (Proc.devRef .tc main_v3)) slices_S2x8x128_S1x1x1_0_0_0) shapeCasts_S1x1x1_S_)
        (shapeCast S_ (extractStridedSlice S1x1x1 ![1, 0, 0] (W (Proc.devRef .tc main_v3)) slices_S2x8x128_S1x1x1_1_0_0) shapeCasts_S1x1x1_S_) := by
  dsimp only [hostOps1]
  after_results
  all_goals rfl

/-- The program's result is the sum of the first entries of the region's two partial sums. -/
theorem tail_v8 : StableHlo.after (hostOps1 (F := Ideal)) W (Proc.devRef .tc main_v8)
    = fun _ => HAdd.hAdd (α := EReal) (β := EReal) (γ := EReal)
        (W (Proc.devRef .tc main_v3) (ValueIdx.ix3 (0 : Fin 2) (0 : Fin 8) (0 : Fin 128)))
        (W (Proc.devRef .tc main_v3) (ValueIdx.ix3 (1 : Fin 2) (0 : Fin 8) (0 : Fin 128))) := by
  funext i
  refine (congrFun (tail_v8_term W) i).trans ?_
  rw [addf_apply]
  exact congrArg₂ (· + ·) (first_entry _ 0 _ rfl rfl rfl _ i) (first_entry _ 1 _ rfl rfl rfl _ i)

/-- The host operations after the region write neither argument. -/
theorem tail_keeps (b : Ref sig .tc) (hb : b = main_arg0 ∨ b = main_arg1) :
    StableHlo.after (hostOps1 (F := Ideal)) W (Proc.devRef .tc b) = W (Proc.devRef .tc b) := by
  rcases hb with rfl | rfl
  · dsimp only [hostOps1]
    after_results
  · dsimp only [hostOps1]
    after_results

end Tail

end Cert.KernelIdeal.Hand

end
-- ==== Proof.Regroup.lean ====
import Idealize.ShloMosaic.PureOps.Ideal
import Mathlib.Algebra.BigOperators.Fin
import Mathlib.Logic.Equiv.Fin.Basic

/-! # A sum over 4096 rows, taken 64 rows at a time and the 64 blocks in two halves

If block `gi` holds the sum (from zero) over its 64 rows of each row's sum (from zero) over the 4096 columns, then the
first 32 blocks plus the last 32 blocks make the sum over the whole image: row `i` is row `i % 64` of block `i / 64`.
Addition of extended reals is commutative and associative, so the regrouping needs no finiteness. -/

noncomputable section

namespace Cert.EdgeEnergy

theorem regroup (f : Fin 4096 → Fin 4096 → EReal) (B : ℕ → EReal)
    (hB : ∀ gi (h : gi < 64), B gi = 0 + ∑ r : Fin 64, (0 + ∑ l : Fin 4096, f ⟨64 * gi + r.val, by omega⟩ l)) :
    (∑ k ∈ Finset.range 32, B k) + (∑ k ∈ Finset.range 32, B (32 + k)) = ∑ i : Fin 4096, ∑ j : Fin 4096, f i j := by
  -- a block's value, with the two zeros gone
  have hrow : ∀ k : Fin 64, B k.val = ∑ r : Fin 64, ∑ l : Fin 4096, f ⟨64 * k.val + r.val, by omega⟩ l := fun k => by
    rw [hB k.val k.isLt, zero_add]
    exact Finset.sum_congr rfl fun r _ => zero_add _
  -- the two halves are the 64 blocks in order
  have hhalves : (∑ k ∈ Finset.range 32, B k) + (∑ k ∈ Finset.range 32, B (32 + k)) = ∑ k ∈ Finset.range 64, B k :=
    (Finset.sum_range_add B 32 32).symm
  rw [hhalves, Finset.sum_range, Finset.sum_congr rfl fun k _ => hrow k]
  -- a row is a (block, row in the block) pair
  rw [← Equiv.sum_comp (finProdFinEquiv : Fin 64 × Fin 64 ≃ Fin 4096) fun i => ∑ j : Fin 4096, f i j,
    Fintype.sum_prod_type]
  refine Finset.sum_congr rfl fun k _ => Finset.sum_congr rfl fun r _ => ?_
  have e : (⟨64 * k.val + r.val, by omega⟩ : Fin 4096) = (finProdFinEquiv : Fin 64 × Fin 64 ≃ Fin 4096) (k, r) :=
    Fin.ext (by show 64 * k.val + r.val = r.val + 64 * k.val; omega)
  rw [e]

end Cert.EdgeEnergy

end
-- ==== Proof.PointFlags.lean ====
import proofs.«126209_j52080773431332_2_alg».proof.Proof.Point
import Idealize.ShloMosaic.Lib.ValueLayout
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx

/-! # The two boundary flags

The block number is `32 p + q` for coordinates `p < 2`, `q < 32`; in 32-bit words it does not wrap, so the word
compares equal to 0 (to 63) exactly when the number is 0 (is 63). -/

/-- The word arithmetic, over the two coordinates' ranges. -/
theorem flags_word : ∀ (p : Fin 2) (q : Fin 32),
    (Scalar.cmpi .eq (Scalar.addi (Scalar.muli (BitVec.ofNat 32 p.val) 32#32) (BitVec.ofNat 32 q.val)) 0#32 = 1#1
        ↔ 32 * p.val + q.val = 0)
      ∧ (Scalar.cmpi .eq (Scalar.addi (Scalar.muli (BitVec.ofNat 32 p.val) 32#32) (BitVec.ofNat 32 q.val)) 63#32 = 1#1
        ↔ 32 * p.val + q.val = 63) := by
  decide

/-- The first-block flag is set exactly at block 0. -/
theorem topFlag_iff (i : grid0.Coords) : topFlag i = 1#1 ↔ 32 * (i 0).val + (i 1).val = 0 :=
  (flags_word (i 0) (i 1)).1

/-- The last-block flag is set exactly at block 63. -/
theorem lastFlag_iff (i : grid0.Coords) : lastFlag i = 1#1 ↔ 32 * (i 0).val + (i 1).val = 63 :=
  (flags_word (i 0) (i 1)).2

end Cert.KernelIdeal.Hand

end
-- ==== Proof.PointRows.lean ====
import proofs.«126209_j52080773431332_2_alg».proof.Proof.Point
import Idealize.ShloMosaic.Lib.ValueLayout
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx

/-! # The vertical neighbours of a block's row

A block of 64 rows with the row above it on top of its first 63 rows, and its last 63 rows with the row below it
underneath: at row `r` the first reads the row above the block (or the splat, at a flagged block) when `r = 0` and the
block's row `r - 1` otherwise; the second reads the block's row `r + 1` when `r < 63` and the row below the block (or
the splat) at `r = 63`. -/

section Rows
variable (hs7 : S8x4096.Slices ![7, 0] S1x4096) (hs0 : S8x4096.Slices ![0, 0] S1x4096)
  (hb0 : S64x4096.Slices ![0, 0] S63x4096) (hb1 : S64x4096.Slices ![1, 0] S63x4096)
  (hcT : Shape.Concatenates [S1x4096, S63x4096] S64x4096 0) (hcB : Shape.Concatenates [S63x4096, S1x4096] S64x4096 0)

/-- The block shifted down one row, the halo row (or the splat `z`) on top. -/
theorem above_apply (f : BitVec 1) (z : Ideal .f32) (X : FVec Ideal S64x4096 .f32) (A : FVec Ideal S8x4096 .f32)
    (r : Fin 64) (l : Fin 4096) :
    concatenate S64x4096 0 [⟨S1x4096, Scalar.select f (broadcast S1x4096 z) (extractStridedSlice S1x4096 ![7, 0] A hs7)⟩,
        ⟨S63x4096, extractStridedSlice S63x4096 ![0, 0] X hb0⟩] hcT (ix2 r l)
      = if h : 0 < r.val then X (ix2 (⟨r.val - 1, by omega⟩ : Fin 64) l)
        else (if f = 1#1 then z else A (ix2 (7 : Fin 8) l)) := by
  by_cases h : 0 < r.val
  · rw [dif_pos h]
    refine (concatenate_pair_apply_right (t := S64x4096) (s₁ := S1x4096) (s₂ := S63x4096) (0 : Fin 2) _ _ hcT (ix2 r l) rfl rfl
      (ix2 (⟨r.val - 1, by omega⟩ : Fin 63) l) ?_ ?_).trans ?_
    · intro b hb
      match b with
      | ⟨0, _⟩ => exact absurd rfl hb
      | ⟨1, _⟩ => rfl
    · show (r.val - 1) + 1 = r.val
      omega
    · exact slice2_axis0_apply 0 X hb0 _ l _ (by show r.val - 1 = 0 + (r.val - 1); omega)
  · rw [dif_neg h]
    refine (concatenate_pair_apply_left (t := S64x4096) (s₁ := S1x4096) (s₂ := S63x4096) (0 : Fin 2) _ _ hcT (ix2 r l) rfl (ix2 (0 : Fin 1) l) ?_).trans ?_
    · intro b
      match b with
      | ⟨0, _⟩ => show 0 = r.val; omega
      | ⟨1, _⟩ => rfl
    · by_cases hf : f = 1#1
      · rw [if_pos hf, hf, select_one]; rfl
      · rw [if_neg hf, eq_zero_of_ne_one hf, select_zero]
        exact slice2_axis0_apply 7 A hs7 _ l _ rfl

/-- The block shifted up one row, the halo row (or the splat `z`) underneath. -/
theorem below_apply (f : BitVec 1) (z : Ideal .f32) (X : FVec Ideal S64x4096 .f32) (B : FVec Ideal S8x4096 .f32)
    (r : Fin 64) (l : Fin 4096) :
    concatenate S64x4096 0 [⟨S63x4096, extractStridedSlice S63x4096 ![1, 0] X hb1⟩,
        ⟨S1x4096, Scalar.select f (broadcast S1x4096 z) (extractStridedSlice S1x4096 ![0, 0] B hs0)⟩] hcB (ix2 r l)
      = if h : r.val < 63 then X (ix2 (⟨r.val + 1, by omega⟩ : Fin 64) l)
        else (if f = 1#1 then z else B (ix2 (0 : Fin 8) l)) := by
  by_cases h : r.val < 63
  · rw [dif_pos h]
    refine (concatenate_pair_apply_left (t := S64x4096) (s₁ := S63x4096) (s₂ := S1x4096) (0 : Fin 2) _ _ hcB (ix2 r l) rfl (ix2 (⟨r.val, h⟩ : Fin 63) l) ?_).trans ?_
    · intro b
      match b with
      | ⟨0, _⟩ => rfl
      | ⟨1, _⟩ => rfl
    · exact slice2_axis0_apply 1 X hb1 _ l _ (by show r.val + 1 = 1 + r.val; omega)
  · rw [dif_neg h]
    refine (concatenate_pair_apply_right (t := S64x4096) (s₁ := S63x4096) (s₂ := S1x4096) (0 : Fin 2) _ _ hcB (ix2 r l) rfl rfl (ix2 (0 : Fin 1) l) ?_ ?_).trans ?_
    · intro b hb
      match b with
      | ⟨0, _⟩ => exact absurd rfl hb
      | ⟨1, _⟩ => rfl
    · show 0 + 63 = r.val
      omega
    · by_cases hf : f = 1#1
      · rw [if_pos hf, hf, select_one]; rfl
      · rw [if_neg hf, eq_zero_of_ne_one hf, select_zero]
        exact slice2_axis0_apply 0 B hs0 _ l _ rfl

end Rows

end Cert.KernelIdeal.Hand

end
-- ==== Proof.PointCols.lean ====
import proofs.«126209_j52080773431332_2_alg».proof.Proof.Point
import Idealize.ShloMosaic.Lib.ValueLayout
import Idealize.ShloMosaic.Lib.WordArith
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx

/-! # The horizontal neighbours along a block's row

A rotation by 1 along the 4096 columns brings the left neighbour to each column (the last column's entry to column 0),
a rotation by 4095 the right neighbour (column 0's entry to the last column); the column number, compared with 0 and
with 4095, masks the wrapped entry to the splat. -/

/-- A column number, as a word, is positive read signed exactly when it is positive. -/
theorem sgt_zero_iff (n : Nat) (hn : n < 4096) : IntOp.cmpi .sgt (BitVec.ofNat 32 n) 0#32 = 1#1 ↔ 0 < n := by
  have h0 : (0#32 : BitVec 32).toInt = 0 := by decide
  rw [IntOp.cmpi_sgt, WordArith.toInt_ofNat_small n (by omega), h0]
  omega

/-- A column number, as a word, is below 4095 read signed exactly when it is below 4095. -/
theorem slt_last_iff (n : Nat) (hn : n < 4096) : IntOp.cmpi .slt (BitVec.ofNat 32 n) 4095#32 = 1#1 ↔ n < 4095 := by
  have h0 : (4095#32 : BitVec 32).toInt = 4095 := by decide
  rw [IntOp.cmpi_slt, WordArith.toInt_ofNat_small n (by omega), h0]
  omega

section Cols
variable (hrot : S64x4096.Rotates 1 none) (hio : S64x4096.Iotas .tc 32 [1])

/-- The left neighbour, the splat `z` in column 0. -/
theorem left_apply (z : Ideal .f32) (X : FVec Ideal S64x4096 .f32) (r : Fin 64) (l : Fin 4096) :
    select (cmpi .sgt (iota .tc S64x4096 32 [1] hio) (broadcast S64x4096 0#32)) (dynamicRotate 1 1#32 none X hrot)
        (broadcast S64x4096 z) (ix2 r l)
      = if h : 0 < l.val then X (ix2 r (⟨l.val - 1, by omega⟩ : Fin 4096)) else z := by
  rw [select_apply]
  have hc : cmpi .sgt (iota .tc S64x4096 32 [1] hio) (broadcast S64x4096 0#32) (ix2 r l)
      = IntOp.cmpi .sgt (BitVec.ofNat 32 l.val) 0#32 := by
    show IntOp.cmpi .sgt (iota .tc S64x4096 32 [1] hio (ix2 r l)) 0#32 = _
    rw [iota_single_apply]
  rw [hc]
  by_cases h : 0 < l.val
  · rw [dif_pos h, (sgt_zero_iff l.val l.isLt).2 h, select_one]
    refine dynamicRotate_apply (1 : Fin 2) 1#32 X hrot (ix2 r l) (ix2 r (⟨l.val - 1, by omega⟩ : Fin 4096)) fun b => ?_
    match b with
    | ⟨0, _⟩ => rfl
    | ⟨1, _⟩ =>
      show l.val - 1 = (l.val + 4096 - 1 % 4096) % 4096
      omega
  · have hz : IntOp.cmpi .sgt (BitVec.ofNat 32 l.val) 0#32 = 0#1 :=
      eq_zero_of_ne_one fun hh => h ((sgt_zero_iff l.val l.isLt).1 hh)
    rw [dif_neg h, hz, select_zero]
    rfl

/-- The right neighbour, the splat `z` in column 4095. -/
theorem right_apply (z : Ideal .f32) (X : FVec Ideal S64x4096 .f32) (r : Fin 64) (l : Fin 4096) :
    select (cmpi .slt (iota .tc S64x4096 32 [1] hio) (broadcast S64x4096 4095#32)) (dynamicRotate 1 4095#32 none X hrot)
        (broadcast S64x4096 z) (ix2 r l)
      = if h : l.val + 1 < 4096 then X (ix2 r (⟨l.val + 1, h⟩ : Fin 4096)) else z := by
  rw [select_apply]
  have hc : cmpi .slt (iota .tc S64x4096 32 [1] hio) (broadcast S64x4096 4095#32) (ix2 r l)
      = IntOp.cmpi .slt (BitVec.ofNat 32 l.val) 4095#32 := by
    show IntOp.cmpi .slt (iota .tc S64x4096 32 [1] hio (ix2 r l)) 4095#32 = _
    rw [iota_single_apply]
  rw [hc]
  by_cases h : l.val + 1 < 4096
  · rw [dif_pos h, (slt_last_iff l.val l.isLt).2 (by omega), select_one]
    refine dynamicRotate_apply (1 : Fin 2) 4095#32 X hrot (ix2 r l) (ix2 r (⟨l.val + 1, h⟩ : Fin 4096)) fun b => ?_
    match b with
    | ⟨0, _⟩ => rfl
    | ⟨1, _⟩ =>
      show l.val + 1 = (l.val + 4096 - 4095 % 4096) % 4096
      omega
  · have hz : IntOp.cmpi .slt (BitVec.ofNat 32 l.val) 4095#32 = 0#1 :=
      eq_zero_of_ne_one fun hh => h (by have := (slt_last_iff l.val l.isLt).1 hh; omega)
    rw [dif_neg h, hz, select_zero]
    rfl

end Cols

end Cert.KernelIdeal.Hand

end
-- ==== Proof.PointMath.lean ====
import proofs.«126209_j52080773431332_2_alg».proof.Proof.Spec

/-! # A block's neighbour differences are the image's

For an image `Y` and the block of rows `64 g … 64 g + 63`, the differences taken inside the block — with the row
above and the row below supplied separately, or a zero when the block is the image's first or last — are the
image's central differences `dy`, `dx` at the block's pixels. -/

noncomputable section

namespace Cert.KernelIdeal.Hand

open Cert.EdgeEnergy

/-- The vertical difference. `X` is the block, `U` / `D` the rows above / below it, `ft` / `fl` the bits that say the
    block is the first / the last, `z` the value used outside the image. -/
theorem block_dy (Y : Img) (g : ℕ) (hg : g < 64) (X : Fin 64 → Fin 4096 → EReal) (U D : Fin 4096 → EReal)
    (ft fl : BitVec 1) (z : EReal) (hz : z = 0) (hft : ft = 1#1 ↔ g = 0) (hfl : fl = 1#1 ↔ g = 63)
    (hX : ∀ (r : Fin 64) (l : Fin 4096), X r l = Y ⟨64 * g + r.val, by omega⟩ l)
    (hU : 0 < g → ∀ l : Fin 4096, U l = Y ⟨64 * g - 1, by omega⟩ l)
    (hD : ∀ (hg63 : g < 63) (l : Fin 4096), D l = Y ⟨64 * g + 64, by omega⟩ l) (r : Fin 64) (l : Fin 4096) :
    (if h : 0 < r.val then X ⟨r.val - 1, by omega⟩ l else if ft = 1#1 then z else U l)
        - (if h : r.val < 63 then X ⟨r.val + 1, by omega⟩ l else if fl = 1#1 then z else D l)
      = dy Y ⟨64 * g + r.val, by omega⟩ l := by
  have hup : (if h : 0 < r.val then X ⟨r.val - 1, by omega⟩ l else if ft = 1#1 then z else U l)
      = up Y ⟨64 * g + r.val, by omega⟩ l := by
    unfold up
    by_cases h : 0 < r.val
    · rw [dif_pos h, dif_pos (show 0 < 64 * g + r.val by omega), hX]
      exact congrArg (fun k => Y k l) (Fin.ext (by show 64 * g + (r.val - 1) = 64 * g + r.val - 1; omega))
    · rw [dif_neg h]
      by_cases hg0 : g = 0
      · rw [if_pos (hft.2 hg0), dif_neg (show ¬ 0 < 64 * g + r.val by omega), hz]
      · rw [if_neg (fun hh => hg0 (hft.1 hh)), dif_pos (show 0 < 64 * g + r.val by omega), hU (by omega)]
        exact congrArg (fun k => Y k l) (Fin.ext (by show 64 * g - 1 = 64 * g + r.val - 1; omega))
  have hdown : (if h : r.val < 63 then X ⟨r.val + 1, by omega⟩ l else if fl = 1#1 then z else D l)
      = down Y ⟨64 * g + r.val, by omega⟩ l := by
    unfold down
    by_cases h : r.val < 63
    · rw [dif_pos h, dif_pos (show 64 * g + r.val + 1 < 4096 by omega), hX]
      exact congrArg (fun k => Y k l) (Fin.ext (by show 64 * g + (r.val + 1) = 64 * g + r.val + 1; omega))
    · rw [dif_neg h]
      by_cases hg63 : g = 63
      · rw [if_pos (hfl.2 hg63), dif_neg (show ¬ 64 * g + r.val + 1 < 4096 by omega), hz]
      · rw [if_neg (fun hh => hg63 (hfl.1 hh)), dif_pos (show 64 * g + r.val + 1 < 4096 by omega), hD (by omega)]
        exact congrArg (fun k => Y k l) (Fin.ext (by show 64 * g + 64 = 64 * g + r.val + 1; omega))
  rw [hup, hdown]
  rfl

/-- The horizontal difference: the block holds whole rows, so both neighbours are in it. -/
theorem block_dx (Y : Img) (g : ℕ) (hg : g < 64) (X : Fin 64 → Fin 4096 → EReal) (z : EReal) (hz : z = 0)
    (hX : ∀ (r : Fin 64) (l : Fin 4096), X r l = Y ⟨64 * g + r.val, by omega⟩ l) (r : Fin 64) (l : Fin 4096) :
    (if h : l.val + 1 < 4096 then X r ⟨l.val + 1, h⟩ else z) - (if h : 0 < l.val then X r ⟨l.val - 1, by omega⟩ else z)
      = dx Y ⟨64 * g + r.val, by omega⟩ l := by
  have hr : (if h : l.val + 1 < 4096 then X r ⟨l.val + 1, h⟩ else z) = right Y ⟨64 * g + r.val, by omega⟩ l := by
    unfold right
    by_cases h : l.val + 1 < 4096
    · rw [dif_pos h, dif_pos h, hX]
    · rw [dif_neg h, dif_neg h, hz]
  have hl : (if h : 0 < l.val then X r ⟨l.val - 1, by omega⟩ else z) = left Y ⟨64 * g + r.val, by omega⟩ l := by
    unfold left
    by_cases h : 0 < l.val
    · rw [dif_pos h, dif_pos h, hX]
    · rw [dif_neg h, dif_neg h, hz]
  rw [hr, hl]
  rfl

/-- So the block's squared gradient is the image's. -/
theorem block_gradSq (Y : Img) (g : ℕ) (hg : g < 64) (X : Fin 64 → Fin 4096 → EReal) (U D : Fin 4096 → EReal)
    (ft fl : BitVec 1) (z : EReal) (hz : z = 0) (hft : ft = 1#1 ↔ g = 0) (hfl : fl = 1#1 ↔ g = 63)
    (hX : ∀ (r : Fin 64) (l : Fin 4096), X r l = Y ⟨64 * g + r.val, by omega⟩ l)
    (hU : 0 < g → ∀ l : Fin 4096, U l = Y ⟨64 * g - 1, by omega⟩ l)
    (hD : ∀ (hg63 : g < 63) (l : Fin 4096), D l = Y ⟨64 * g + 64, by omega⟩ l) (r : Fin 64) (l : Fin 4096) :
    ((if h : l.val + 1 < 4096 then X r ⟨l.val + 1, h⟩ else z) - (if h : 0 < l.val then X r ⟨l.val - 1, by omega⟩ else z))
          * ((if h : l.val + 1 < 4096 then X r ⟨l.val + 1, h⟩ else z) - (if h : 0 < l.val then X r ⟨l.val - 1, by omega⟩ else z))
        + ((if h : 0 < r.val then X ⟨r.val - 1, by omega⟩ l else if ft = 1#1 then z else U l)
            - (if h : r.val < 63 then X ⟨r.val + 1, by omega⟩ l else if fl = 1#1 then z else D l))
          * ((if h : 0 < r.val then X ⟨r.val - 1, by omega⟩ l else if ft = 1#1 then z else U l)
            - (if h : r.val < 63 then X ⟨r.val + 1, by omega⟩ l else if fl = 1#1 then z else D l))
      = gradSq Y ⟨64 * g + r.val, by omega⟩ l := by
  rw [block_dx Y g hg X z hz hX r l, block_dy Y g hg X U D ft fl z hz hft hfl hX hU hD r l]
  rfl

end Cert.KernelIdeal.Hand

end
-- ==== Proof.PointPixel.lean ====
import proofs.«126209_j52080773431332_2_alg».proof.Proof.Spec
import proofs.«126209_j52080773431332_2_alg».proof.Proof.Point
import proofs.«126209_j52080773431332_2_alg».proof.Proof.PointFlags
import proofs.«126209_j52080773431332_2_alg».proof.Proof.PointRows
import proofs.«126209_j52080773431332_2_alg».proof.Proof.PointCols
import proofs.«126209_j52080773431332_2_alg».proof.Proof.PointMath
import Idealize.ShloMosaic.Lib.ValueLayout
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx

open Cert.EdgeEnergy

/-! # One pixel's term

At row `r`, column `l` of the block the body's product — the squared gradient of the clamped logarithm of the map times
the logistic weight of the guide's gradient — is the specification's `pixel` at row `64 g + r`, column `l`. -/

/-- The word for zero denotes zero. -/
theorem z0_eq : (Scalar.ofBits .f32 0x00000000#32 : Ideal .f32) = 0 := Ideal.ofBits_zero_f32

/-- Clamp to `[eps, 1]` and take the logarithm, entry by entry. -/
def lc {s : Shape} (v : FVec Ideal s .f32) : FVec Ideal s .f32 :=
  log (minimumf (broadcast s (Scalar.ofBits .f32 0x3F800000#32)) (maximumf (broadcast s (Scalar.ofBits .f32 0x33D6BF95#32)) v))

theorem lc_apply {s : Shape} (v : FVec Ideal s .f32) (j : s.Idx) : lc v j = Ideal.log (min one (max eps (v j))) := rfl

theorem pay4_eq (x0 : Vec Ideal S64x4096 .f32) : k0_pay4 (F := Ideal) x0 = lc x0 := rfl

theorem sub_congr {a a' b b' : EReal} (ha : a = a') (hb : b = b') : a - b = a' - b' := by rw [ha, hb]

/-- The map's vertical difference at an entry of the block. -/
theorem pay5_apply (i : grid0.Coords) (x0 : Vec Ideal S64x4096 .f32) (x1 x2 : Vec Ideal S8x4096 .f32)
    (r : Fin 64) (l : Fin 4096) :
    k0_pay5 (F := Ideal) i x0 x1 x2 (ix2 r l)
      = (if h : 0 < r.val then lc x0 (ix2 (⟨r.val - 1, by omega⟩ : Fin 64) l)
          else if topFlag i = 1#1 then (Scalar.ofBits .f32 0x00000000#32 : Ideal .f32) else lc x1 (ix2 (7 : Fin 8) l))
        - (if h : r.val < 63 then lc x0 (ix2 (⟨r.val + 1, by omega⟩ : Fin 64) l)
          else if lastFlag i = 1#1 then (Scalar.ofBits .f32 0x00000000#32 : Ideal .f32) else lc x2 (ix2 (0 : Fin 8) l)) :=
  sub_congr
    (above_apply Facts₀.slices_S8x4096_o7_0_S1x4096 Facts₀.slices_S64x4096_o0_0_S63x4096
      Facts₀.concatenates_S1x4096_S63x4096_S64x4096_d0 (topFlag i) _ (lc x0) (lc x1) r l)
    (below_apply Facts₀.slices_S8x4096_o0_0_S1x4096 Facts₀.slices_S64x4096_o1_0_S63x4096
      Facts₀.concatenates_S63x4096_S1x4096_S64x4096_d0 (lastFlag i) _ (lc x0) (lc x2) r l)

/-- The guide's vertical difference at an entry of the block. -/
theorem pay9_apply (i : grid0.Coords) (x3 : Vec Ideal S64x4096 .f32) (x4 x5 : Vec Ideal S8x4096 .f32)
    (r : Fin 64) (l : Fin 4096) :
    k0_pay9 (F := Ideal) (topFlag i) (lastFlag i) x3 x4 x5 (ix2 r l)
      = (if h : 0 < r.val then x3 (ix2 (⟨r.val - 1, by omega⟩ : Fin 64) l)
          else if topFlag i = 1#1 then (Scalar.ofBits .f32 0x00000000#32 : Ideal .f32) else x4 (ix2 (7 : Fin 8) l))
        - (if h : r.val < 63 then x3 (ix2 (⟨r.val + 1, by omega⟩ : Fin 64) l)
          else if lastFlag i = 1#1 then (Scalar.ofBits .f32 0x00000000#32 : Ideal .f32) else x5 (ix2 (0 : Fin 8) l)) := by
  have h8 : k0_pay8 (F := Ideal) x3 = x3 := shapeCast_self x3 _
  have h4 : shapeCast S8x4096 x4 Facts₀.shapeCasts_S8x4096_S8x4096 = x4 := shapeCast_self x4 _
  have h5 : shapeCast S8x4096 x5 Facts₀.shapeCasts_S8x4096_S8x4096 = x5 := shapeCast_self x5 _
  refine (sub_congr
    (above_apply Facts₀.slices_S8x4096_o7_0_S1x4096 Facts₀.slices_S64x4096_o0_0_S63x4096
      Facts₀.concatenates_S1x4096_S63x4096_S64x4096_d0 (topFlag i) _ (k0_pay8 x3)
      (shapeCast S8x4096 x4 Facts₀.shapeCasts_S8x4096_S8x4096) r l)
    (below_apply Facts₀.slices_S8x4096_o0_0_S1x4096 Facts₀.slices_S64x4096_o1_0_S63x4096
      Facts₀.concatenates_S63x4096_S1x4096_S64x4096_d0 (lastFlag i) _ (k0_pay8 x3)
      (shapeCast S8x4096 x5 Facts₀.shapeCasts_S8x4096_S8x4096) r l)).trans ?_
  rw [h8, h4, h5]

section Grad
variable (hrot : S64x4096.Rotates 1 none) (hio : S64x4096.Iotas .tc 32 [1])

/-- The squared gradient as the body spells it: the masked right neighbour less the masked left one, squared, plus
    the square of a vertical difference `P`. -/
theorem grad_apply (z : Ideal .f32) (X P : FVec Ideal S64x4096 .f32) (r : Fin 64) (l : Fin 4096) :
    addf
        (mulf
          (subf
            (select (cmpi .slt (iota .tc S64x4096 32 [1] hio) (broadcast S64x4096 4095#32)) (dynamicRotate 1 4095#32 none X hrot)
              (broadcast S64x4096 z))
            (select (cmpi .sgt (iota .tc S64x4096 32 [1] hio) (broadcast S64x4096 0#32)) (dynamicRotate 1 1#32 none X hrot)
              (broadcast S64x4096 z)))
          (subf
            (select (cmpi .slt (iota .tc S64x4096 32 [1] hio) (broadcast S64x4096 4095#32)) (dynamicRotate 1 4095#32 none X hrot)
              (broadcast S64x4096 z))
            (select (cmpi .sgt (iota .tc S64x4096 32 [1] hio) (broadcast S64x4096 0#32)) (dynamicRotate 1 1#32 none X hrot)
              (broadcast S64x4096 z))))
        (mulf P P) (ix2 r l)
      = ((if h : l.val + 1 < 4096 then X (ix2 r (⟨l.val + 1, h⟩ : Fin 4096)) else z)
            - (if h : 0 < l.val then X (ix2 r (⟨l.val - 1, by omega⟩ : Fin 4096)) else z))
          * ((if h : l.val + 1 < 4096 then X (ix2 r (⟨l.val + 1, h⟩ : Fin 4096)) else z)
            - (if h : 0 < l.val then X (ix2 r (⟨l.val - 1, by omega⟩ : Fin 4096)) else z))
        + P (ix2 r l) * P (ix2 r l) := by
  rw [addf_apply, mulf_apply, mulf_apply, subf_apply, right_apply, left_apply]

end Grad

section Pixel
variable (i : grid0.Coords) (T G : Img)
  (x0 : Vec Ideal S64x4096 .f32) (x1 x2 : Vec Ideal S8x4096 .f32) (x3 : Vec Ideal S64x4096 .f32) (x4 x5 : Vec Ideal S8x4096 .f32)
  (gi : ℕ) (hgi : gi = 32 * (i 0).val + (i 1).val) (hlt : gi < 64)

/-- The map's part: the squared gradient of its clamped logarithm. -/
theorem gradT_apply
    (h0 : ∀ (r : Fin 64) (l : Fin 4096), x0 (ix2 r l) = T ⟨64 * gi + r.val, by omega⟩ l)
    (h1 : 0 < gi → ∀ l : Fin 4096, x1 (ix2 (7 : Fin 8) l) = T ⟨64 * gi - 1, by omega⟩ l)
    (h2 : ∀ (hg : gi < 63) (l : Fin 4096), x2 (ix2 (0 : Fin 8) l) = T ⟨64 * gi + 64, by omega⟩ l)
    (r : Fin 64) (l : Fin 4096) :
    k0_pay7 (F := Ideal) (k0_pay4 x0) (k0_pay5 i x0 x1 x2) (k0_pay6 x0) (ix2 r l)
      = gradSq (logClip T) ⟨64 * gi + r.val, by omega⟩ l := by
  refine (grad_apply Facts₀.rotates_S64x4096_d1 Facts₀.iota_S64x4096_d1_w32 (Scalar.ofBits .f32 0x00000000#32) (lc x0)
    (k0_pay5 i x0 x1 x2) r l).trans ?_
  rw [pay5_apply]
  exact block_gradSq (logClip T) gi hlt (fun r l => lc x0 (ix2 r l)) (fun l => lc x1 (ix2 (7 : Fin 8) l))
    (fun l => lc x2 (ix2 (0 : Fin 8) l)) (topFlag i) (lastFlag i) _ z0_eq
    (by rw [hgi]; exact topFlag_iff i) (by rw [hgi]; exact lastFlag_iff i)
    (fun r l => congrArg (fun v => Ideal.log (min one (max eps v))) (h0 r l))
    (fun hg l => congrArg (fun v => Ideal.log (min one (max eps v))) (h1 hg l))
    (fun hg l => congrArg (fun v => Ideal.log (min one (max eps v))) (h2 hg l)) r l

/-- The guide's part: its squared gradient. -/
theorem gradG_apply
    (h3 : ∀ (r : Fin 64) (l : Fin 4096), x3 (ix2 r l) = G ⟨64 * gi + r.val, by omega⟩ l)
    (h4 : 0 < gi → ∀ l : Fin 4096, x4 (ix2 (7 : Fin 8) l) = G ⟨64 * gi - 1, by omega⟩ l)
    (h5 : ∀ (hg : gi < 63) (l : Fin 4096), x5 (ix2 (0 : Fin 8) l) = G ⟨64 * gi + 64, by omega⟩ l)
    (r : Fin 64) (l : Fin 4096) :
    addf (F := Ideal)
        (mulf (subf (k0_pay12 x3) (select k0_pay11 (k0_pay10 x3) k0_pay13))
          (subf (k0_pay12 x3) (select k0_pay11 (k0_pay10 x3) k0_pay13)))
        (mulf (k0_pay9 (topFlag i) (lastFlag i) x3 x4 x5) (k0_pay9 (topFlag i) (lastFlag i) x3 x4 x5)) (ix2 r l)
      = gradSq G ⟨64 * gi + r.val, by omega⟩ l := by
  have h8 : k0_pay8 (F := Ideal) x3 = x3 := shapeCast_self x3 _
  refine (grad_apply Facts₀.rotates_S64x4096_d1 Facts₀.iota_S64x4096_d1_w32 (Scalar.ofBits .f32 0x00000000#32) (k0_pay8 x3)
    (k0_pay9 (topFlag i) (lastFlag i) x3 x4 x5) r l).trans ?_
  rw [pay9_apply, h8]
  exact block_gradSq G gi hlt (fun r l => x3 (ix2 r l)) (fun l => x4 (ix2 (7 : Fin 8) l))
    (fun l => x5 (ix2 (0 : Fin 8) l)) (topFlag i) (lastFlag i) _ z0_eq
    (by rw [hgi]; exact topFlag_iff i) (by rw [hgi]; exact lastFlag_iff i) h3 h4 h5 r l

/-- The 64 × 4096 pixel terms of the block: the vector the body sums (its last product). -/
def pixVec : FVec Ideal S64x4096 .f32 :=
  mulf (k0_pay7 (k0_pay4 x0) (k0_pay5 i x0 x1 x2) (k0_pay6 x0))
    (logistic (mulf
      (subf (broadcast S64x4096 (Scalar.ofBits .f32 0x3DCCCCCD#32))
        (sqrt (addf
          (mulf (subf (k0_pay12 x3) (select k0_pay11 (k0_pay10 x3) k0_pay13))
            (subf (k0_pay12 x3) (select k0_pay11 (k0_pay10 x3) k0_pay13)))
          (mulf (k0_pay9 (topFlag i) (lastFlag i) x3 x4 x5) (k0_pay9 (topFlag i) (lastFlag i) x3 x4 x5)))))
      (broadcast S64x4096 (Scalar.ofBits .f32 0x42400000#32))))

/-- Each is the specification's pixel term. -/
theorem pixVec_apply
    (h0 : ∀ (r : Fin 64) (l : Fin 4096), x0 (ix2 r l) = T ⟨64 * gi + r.val, by omega⟩ l)
    (h1 : 0 < gi → ∀ l : Fin 4096, x1 (ix2 (7 : Fin 8) l) = T ⟨64 * gi - 1, by omega⟩ l)
    (h2 : ∀ (hg : gi < 63) (l : Fin 4096), x2 (ix2 (0 : Fin 8) l) = T ⟨64 * gi + 64, by omega⟩ l)
    (h3 : ∀ (r : Fin 64) (l : Fin 4096), x3 (ix2 r l) = G ⟨64 * gi + r.val, by omega⟩ l)
    (h4 : 0 < gi → ∀ l : Fin 4096, x4 (ix2 (7 : Fin 8) l) = G ⟨64 * gi - 1, by omega⟩ l)
    (h5 : ∀ (hg : gi < 63) (l : Fin 4096), x5 (ix2 (0 : Fin 8) l) = G ⟨64 * gi + 64, by omega⟩ l)
    (r : Fin 64) (l : Fin 4096) :
    pixVec i x0 x1 x2 x3 x4 x5 (ix2 r l) = pixel T G ⟨64 * gi + r.val, by omega⟩ l := by
  unfold pixel weight
  rw [← gradT_apply i T x0 x1 x2 gi hgi hlt h0 h1 h2 r l, ← gradG_apply i G x3 x4 x5 gi hgi hlt h3 h4 h5 r l]
  rfl

end Pixel

end Cert.KernelIdeal.Hand

end
-- ==== Proof.PointValue.lean ====
import proofs.«126209_j52080773431332_2_alg».proof.Proof.Spec
import proofs.«126209_j52080773431332_2_alg».proof.Proof.Point
import proofs.«126209_j52080773431332_2_alg».proof.Proof.PointPixel
import Idealize.ShloMosaic.Lib.ValueLayout
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx

open Cert.EdgeEnergy

/-! # One grid point's accumulator

The body sums its 64 × 4096 pixel terms along each row, then down the 64 row sums, and adds the total to every entry
of the 8 × 128 accumulator; the terms being the specification's, the total is 64 rows of its sum. -/

/-- The source index of a row sum: the row, with the column inserted. -/
theorem lift_cols (h : S64x4096.Reduces [1] S64) (r : Fin 64) (l : Fin 4096) : h.lift (ix1 r) l = ix2 r l := by
  funext c
  match c with
  | ⟨0, _⟩ => exact Fin.ext rfl
  | ⟨1, _⟩ => exact Fin.ext rfl

/-- The source index of the sum down a column of 64: the row inserted in front of the one column. -/
theorem lift_rows (h : S64x1.Reduces [0] S1) (r : Fin 64) : h.lift (ix1 (0 : Fin 1)) r = ix2 r (0 : Fin 1) := by
  funext c
  match c with
  | ⟨0, _⟩ => exact Fin.ext rfl
  | ⟨1, _⟩ => exact Fin.ext rfl

section Sums
variable (h1 : S64x4096.Reduces [1] S64) (hc1 : S64.ShapeCasts S64x1) (h0 : S64x1.Reduces [0] S1) (hc0 : S1.ShapeCasts S1x1)
  (hb : S1x1.Broadcasts S8x128) (hφ : FKind.Formats .f32) (hacc : (0x00000000#32 : BitVec 32) = FKind.add.neutral .f32 hφ)

/-- A row's sum. -/
theorem rowSum_apply (V : FVec Ideal S64x4096 .f32) (r : Fin 64) :
    multiReduction .add [1] S64 V 0x00000000#32 h1 hφ hacc (ix1 r) = ∑ l : Fin 4096, V (ix2 r l) :=
  (Ideal.multiReduction_add_single V _ h1 hφ hacc (ix1 r)).trans
    (Finset.sum_congr rfl fun l _ => congrArg V (lift_cols h1 r l))

/-- The total, read at any entry of its broadcast. -/
theorem total_apply (V : FVec Ideal S64x4096 .f32) (a : Fin 8) (b : Fin 128) :
    broadcastTo S8x128
        (shapeCast S1x1
          (multiReduction .add [0] S1 (shapeCast S64x1 (multiReduction .add [1] S64 V 0x00000000#32 h1 hφ hacc) hc1)
            0x00000000#32 h0 hφ hacc) hc0) hb (ix2 a b)
      = ∑ r : Fin 64, ∑ l : Fin 4096, V (ix2 r l) := by
  refine (broadcastTo_apply _ hb (ix2 a b) (ix2 (0 : Fin 1) (0 : Fin 1)) (fun ax => by
    match ax with
    | ⟨0, _⟩ => rfl
    | ⟨1, _⟩ => rfl)).trans ?_
  refine (shapeCast_a_1a_apply _ hc0 (0 : Fin 1) (0 : Fin 1)).trans ?_
  refine (Ideal.multiReduction_add_single _ _ h0 hφ hacc (ix1 (0 : Fin 1))).trans ?_
  refine Finset.sum_congr rfl fun r _ => ?_
  refine (congrArg _ (lift_rows h0 r)).trans ?_
  refine (shapeCast_apply _ hc1 (ix2 r (0 : Fin 1)) (ix1 r) (by
    rw [Shape.rowMajor_val_one, Shape.rowMajor_val_two]
    show r.val = r.val * 1 + 0
    omega)).trans ?_
  exact rowSum_apply h1 hφ hacc V r

end Sums

/-- The body's last payload is the accumulator plus the broadcast total of the pixel terms. -/
theorem accNew_unfold (i : grid0.Coords) (x0 : Vec Ideal S64x4096 .f32) (x1 x2 : Vec Ideal S8x4096 .f32)
    (x3 : Vec Ideal S64x4096 .f32) (x4 x5 : Vec Ideal S8x4096 .f32) (s : Vec Ideal S8x128 .f32) :
    accNew (F := Ideal) i x0 x1 x2 x3 x4 x5 s
      = shapeCast S8x128
          (addf s
            (broadcastTo S8x128
              (shapeCast S1x1
                (multiReduction .add [0] S1
                  (shapeCast S64x1
                    (multiReduction .add [1] S64 (pixVec i x0 x1 x2 x3 x4 x5) 0x00000000#32 Facts₀.reduces_S64x4096_S64 (.inl rfl) rfl)
                    Facts₀.shapeCasts_S64_S64x1)
                  0x00000000#32 Facts₀.reduces_S64x1_S1 (.inl rfl) rfl)
                Facts₀.shapeCasts_S1_S1x1)
              Facts₀.broadcasts_S1x1_S8x128))
          Facts₀.shapeCasts_S8x128_S8x128 := rfl

/-- THE POINT'S VALUE: the accumulator after the body is the accumulator before plus the specification's pixel terms
    over the block's 64 rows. -/
theorem accNew_eq (i : grid0.Coords) (T G : Img)
    (x0 : Vec Ideal S64x4096 .f32) (x1 x2 : Vec Ideal S8x4096 .f32) (x3 : Vec Ideal S64x4096 .f32)
    (x4 x5 : Vec Ideal S8x4096 .f32) (s : Vec Ideal S8x128 .f32)
    (gi : ℕ) (hgi : gi = 32 * (i 0).val + (i 1).val) (hlt : gi < 64)
    (h0 : ∀ (r : Fin 64) (l : Fin 4096), x0 (ix2 r l) = T ⟨64 * gi + r.val, by omega⟩ l)
    (h1 : 0 < gi → ∀ l : Fin 4096, x1 (ix2 (7 : Fin 8) l) = T ⟨64 * gi - 1, by omega⟩ l)
    (h2 : ∀ (hg : gi < 63) (l : Fin 4096), x2 (ix2 (0 : Fin 8) l) = T ⟨64 * gi + 64, by omega⟩ l)
    (h3 : ∀ (r : Fin 64) (l : Fin 4096), x3 (ix2 r l) = G ⟨64 * gi + r.val, by omega⟩ l)
    (h4 : 0 < gi → ∀ l : Fin 4096, x4 (ix2 (7 : Fin 8) l) = G ⟨64 * gi - 1, by omega⟩ l)
    (h5 : ∀ (hg : gi < 63) (l : Fin 4096), x5 (ix2 (0 : Fin 8) l) = G ⟨64 * gi + 64, by omega⟩ l)
    (a : Fin 8) (b : Fin 128) :
    accNew (F := Ideal) i x0 x1 x2 x3 x4 x5 s (ix2 a b)
      = s (ix2 a b) + ∑ r : Fin 64, ∑ l : Fin 4096, pixel T G ⟨64 * gi + r.val, by omega⟩ l := by
  rw [accNew_unfold, shapeCast_self, addf_apply]
  refine congrArg (fun t => s (ix2 a b) + t) ?_
  refine (total_apply Facts₀.reduces_S64x4096_S64 Facts₀.shapeCasts_S64_S64x1 Facts₀.reduces_S64x1_S1
    Facts₀.shapeCasts_S1_S1x1 Facts₀.broadcasts_S1x1_S8x128 (.inl rfl) rfl (pixVec i x0 x1 x2 x3 x4 x5) a b).trans ?_
  exact Finset.sum_congr rfl fun r _ => Finset.sum_congr rfl fun l _ =>
    pixVec_apply i T G x0 x1 x2 x3 x4 x5 gi hgi hlt h0 h1 h2 h3 h4 h5 r l

end Cert.KernelIdeal.Hand

end
-- ==== Proof.AccBlocks.lean ====
import proofs.«126209_j52080773431332_2_alg».proof.Proof.Data
import proofs.«126209_j52080773431332_2_alg».proof.Proof.PointValue

set_option maxRecDepth 16384

noncomputable section

namespace Cert.KernelIdeal.Hand

open Cert.KernelIdeal Cert.KernelIdeal.Gen
open Idealize.ShloMosaic Idealize.ShloMosaic.TcCoe Idealize.ShloMosaic.ValueIdx

/-! # The six blocks a grid point reads

The grid's 64 points are numbered by position; point `t` reads rows `64 t … 64 t + 63` of the map and of the guide, and
the 8-row blocks whose last row is row `64 t - 1` and whose first row is row `64 t + 64` (where the image has them). -/

/-- A point's block number, as the body computes it from the point's coordinates, is its position. -/
theorem pos_eq : ∀ t : Fin cfg0.N, t.val = 32 * ((grid0.coords t) 0).val + ((grid0.coords t) 1).val :=
  (by decide +kernel : ∀ t : Fin grid0.N, _)

/-- The printed index maps, decided over the grid. -/
theorem idx_facts : ∀ t : Fin cfg0.N,
    win0_0.index t (0 : Fin 2) = t.val ∧ win0_0.index t (1 : Fin 2) = 0
    ∧ win0_1.index t (0 : Fin 2) = 8 * t.val - 1 ∧ win0_1.index t (1 : Fin 2) = 0
    ∧ win0_2.index t (0 : Fin 2) = min (8 * t.val + 8) 511 ∧ win0_2.index t (1 : Fin 2) = 0
    ∧ win0_3.index t (0 : Fin 2) = t.val ∧ win0_3.index t (1 : Fin 2) = 0
    ∧ win0_4.index t (0 : Fin 2) = 8 * t.val - 1 ∧ win0_4.index t (1 : Fin 2) = 0
    ∧ win0_5.index t (0 : Fin 2) = min (8 * t.val + 8) 511 ∧ win0_5.index t (1 : Fin 2) = 0 :=
  (by decide +kernel : ∀ t : Fin grid0.N, _)

variable (m : (ℓ : Loc nD τ sig) → Buf (Elt Ideal) ℓ)

/-- The map, as the region finds it. -/
def Timg (c : Dev nD) : Cert.EdgeEnergy.Img := fun i j => V (F := Ideal) m c main_arg0 (ix2 i j)
/-- The guide, as the region finds it (the host's channel mean). -/
def Gimg (c : Dev nD) : Cert.EdgeEnergy.Img := fun i j => V (F := Ideal) m c main_v2 (ix2 i j)

theorem t_lt (t : Fin cfg0.N) : t.val < 64 := lt_of_lt_of_eq t.isLt N_0

/-- The map's 64 rows. -/
theorem iblk0_apply (c : Dev nD) (t : Fin cfg0.N) (r : Fin 64) (l : Fin 4096) :
    iblk (F := Ideal) m c 0 t (ix2 r l) = Timg m c ⟨64 * t.val + r.val, by have := t_lt t; omega⟩ l := by
  obtain ⟨e0, e1, -⟩ := idx_facts t
  show V m c main_arg0 (((cfg0.win 0).blk t).view.emb (ix2 r l)) = V m c main_arg0 (ix2 _ l)
  refine congrArg _ (funext fun a => Fin.ext ?_)
  match a with
  | ⟨0, _⟩ => show win0_0.index t (0 : Fin 2) * 64 + 1 * r.val = 64 * t.val + r.val; omega
  | ⟨1, _⟩ => show win0_0.index t (1 : Fin 2) * 4096 + 1 * l.val = l.val; omega

/-- The row above the map's block: the last row of the 8-row block in front of it. -/
theorem iblk1_apply (c : Dev nD) (t : Fin cfg0.N) (ht : 0 < t.val) (l : Fin 4096) :
    iblk (F := Ideal) m c 1 t (ix2 (7 : Fin 8) l) = Timg m c ⟨64 * t.val - 1, by have := t_lt t; omega⟩ l := by
  obtain ⟨-, -, e0, e1, -⟩ := idx_facts t
  show V m c main_arg0 (((cfg0.win 1).blk t).view.emb (ix2 (7 : Fin 8) l)) = V m c main_arg0 (ix2 _ l)
  refine congrArg _ (funext fun a => Fin.ext ?_)
  match a with
  | ⟨0, _⟩ => show win0_1.index t (0 : Fin 2) * 8 + 1 * 7 = 64 * t.val - 1; omega
  | ⟨1, _⟩ => show win0_1.index t (1 : Fin 2) * 4096 + 1 * l.val = l.val; omega

/-- The row below the map's block: the first row of the 8-row block behind it. -/
theorem iblk2_apply (c : Dev nD) (t : Fin cfg0.N) (ht : t.val < 63) (l : Fin 4096) :
    iblk (F := Ideal) m c 2 t (ix2 (0 : Fin 8) l) = Timg m c ⟨64 * t.val + 64, by omega⟩ l := by
  obtain ⟨-, -, -, -, e0, e1, -⟩ := idx_facts t
  show V m c main_arg0 (((cfg0.win 2).blk t).view.emb (ix2 (0 : Fin 8) l)) = V m c main_arg0 (ix2 _ l)
  refine congrArg _ (funext fun a => Fin.ext ?_)
  match a with
  | ⟨0, _⟩ => show win0_2.index t (0 : Fin 2) * 8 + 1 * 0 = 64 * t.val + 64; omega
  | ⟨1, _⟩ => show win0_2.index t (1 : Fin 2) * 4096 + 1 * l.val = l.val; omega

/-- The guide's 64 rows. -/
theorem iblk3_apply (c : Dev nD) (t : Fin cfg0.N) (r : Fin 64) (l : Fin 4096) :
    iblk (F := Ideal) m c 3 t (ix2 r l) = Gimg m c ⟨64 * t.val + r.val, by have := t_lt t; omega⟩ l := by
  obtain ⟨-, -, -, -, -, -, e0, e1, -⟩ := idx_facts t
  show V m c main_v2 (((cfg0.win 3).blk t).view.emb (ix2 r l)) = V m c main_v2 (ix2 _ l)
  refine congrArg _ (funext fun a => Fin.ext ?_)
  match a with
  | ⟨0, _⟩ => show win0_3.index t (0 : Fin 2) * 64 + 1 * r.val = 64 * t.val + r.val; omega
  | ⟨1, _⟩ => show win0_3.index t (1 : Fin 2) * 4096 + 1 * l.val = l.val; omega

/-- The row above the guide's block. -/
theorem iblk4_apply (c : Dev nD) (t : Fin cfg0.N) (ht : 0 < t.val) (l : Fin 4096) :
    iblk (F := Ideal) m c 4 t (ix2 (7 : Fin 8) l) = Gimg m c ⟨64 * t.val - 1, by have := t_lt t; omega⟩ l := by
  obtain ⟨-, -, -, -, -, -, -, -, e0, e1, -⟩ := idx_facts t
  show V m c main_v2 (((cfg0.win 4).blk t).view.emb (ix2 (7 : Fin 8) l)) = V m c main_v2 (ix2 _ l)
  refine congrArg _ (funext fun a => Fin.ext ?_)
  match a with
  | ⟨0, _⟩ => show win0_4.index t (0 : Fin 2) * 8 + 1 * 7 = 64 * t.val - 1; omega
  | ⟨1, _⟩ => show win0_4.index t (1 : Fin 2) * 4096 + 1 * l.val = l.val; omega

/-- The row below the guide's block. -/
theorem iblk5_apply (c : Dev nD) (t : Fin cfg0.N) (ht : t.val < 63) (l : Fin 4096) :
    iblk (F := Ideal) m c 5 t (ix2 (0 : Fin 8) l) = Gimg m c ⟨64 * t.val + 64, by omega⟩ l := by
  obtain ⟨-, -, -, -, -, -, -, -, -, -, e0, e1⟩ := idx_facts t
  show V m c main_v2 (((cfg0.win 5).blk t).view.emb (ix2 (0 : Fin 8) l)) = V m c main_v2 (ix2 _ l)
  refine congrArg _ (funext fun a => Fin.ext ?_)
  match a with
  | ⟨0, _⟩ => show win0_5.index t (0 : Fin 2) * 8 + 1 * 0 = 64 * t.val + 64; omega
  | ⟨1, _⟩ => show win0_5.index t (1 : Fin 2) * 4096 + 1 * l.val = l.val; omega

end Cert.KernelIdeal.Hand

end
-- ==== Proof.AccSum.lean ====
import proofs.«126209_j52080773431332_2_alg».proof.Proof.Data
import proofs.«126209_j52080773431332_2_alg».proof.Proof.PointValue
import proofs.«126209_j52080773431332_2_alg».proof.Proof.AccBlocks

set_option maxRecDepth 16384

noncomputable section

namespace Cert.KernelIdeal.Hand

open Cert.KernelIdeal Cert.KernelIdeal.Gen
open Idealize.ShloMosaic Idealize.ShloMosaic.TcCoe Idealize.ShloMosaic.ValueIdx

open Cert.EdgeEnergy

/-! # The accumulator is the sum of its half's block sums so far

A point adds its block's 64 rows of pixel terms to the accumulator; a half's first point starts from zero. So after
the point at step `k` of half `h` the accumulator holds, in every entry, the sum of the block sums of the half's points
`0 … k`. -/

/-- The pixel terms of block `gi`'s 64 rows (zero past the image's 64 blocks; never used there). -/
def Bsum (T G : Img) (gi : ℕ) : EReal :=
  if h : gi < 64 then ∑ r : Fin 64, ∑ l : Fin 4096, pixel T G ⟨64 * gi + r.val, by omega⟩ l else 0

variable (m : (ℓ : Loc nD τ sig) → Buf (Elt Ideal) ℓ)

/-- The vector a half starts from is zero everywhere. -/
theorem pay3_apply (a : Fin 8) (b : Fin 128) : k0_pay3 (F := Ideal) (ix2 a b) = 0 := by
  show Ideal.ofBits .f32 0x00000000#32 = 0
  exact Ideal.ofBits_zero_f32

/-- One point's update: the block's sum is added to every entry. -/
theorem step_apply (c : Dev nD) (t : Fin cfg0.N) (s : Vec Ideal S8x128 .f32) (a : Fin 8) (b : Fin 128) :
    step (F := Ideal) m c t s (ix2 a b) = s (ix2 a b) + Bsum (Timg m c) (Gimg m c) t.val := by
  have hlt : t.val < 64 := t_lt t
  unfold Bsum
  rw [dif_pos hlt]
  exact accNew_eq (grid0.coords t) (Timg m c) (Gimg m c) (iblk m c 0 t) (iblk m c 1 t) (iblk m c 2 t) (iblk m c 3 t)
    (iblk m c 4 t) (iblk m c 5 t) s t.val (pos_eq t) hlt (iblk0_apply m c t) (iblk1_apply m c t) (iblk2_apply m c t)
    (iblk3_apply m c t) (iblk4_apply m c t) (iblk5_apply m c t) a b

/-- THE ACCUMULATOR after step `k` of half `h`: the block sums of the half's steps `0 … k`. -/
theorem accAt_sum (c : Dev nD) (h : Fin 2) (k : ℕ) (hk : k < 32) (a : Fin 8) (b : Fin 128) :
    accAt (F := Ideal) m c (32 * h.val + k) (ix2 a b)
      = ∑ j ∈ Finset.range (k + 1), Bsum (Timg m c) (Gimg m c) (32 * h.val + j) := by
  have hh : h.val < 2 := h.isLt
  induction k with
  | zero =>
    have hN : 32 * h.val + 0 < cfg0.N := lt_of_lt_of_eq (show 32 * h.val + 0 < 64 by omega) N_0.symm
    have e := accAt_eq (F := Ideal) m c ⟨32 * h.val + 0, hN⟩
    rw [if_pos (show (32 * h.val + 0) % 32 = 0 by omega)] at e
    rw [show accAt m c (32 * h.val + 0) = step m c ⟨32 * h.val + 0, hN⟩ (k0_pay3 (F := Ideal)) from e, step_apply, pay3_apply,
      Finset.sum_range_succ, Finset.sum_range_zero]
  | succ k ih =>
    have hN : 32 * h.val + (k + 1) < cfg0.N := lt_of_lt_of_eq (show 32 * h.val + (k + 1) < 64 by omega) N_0.symm
    have e := accAt_eq (F := Ideal) m c ⟨32 * h.val + (k + 1), hN⟩
    rw [if_neg (show ¬ (32 * h.val + (k + 1)) % 32 = 0 by omega)] at e
    rw [show accAt m c (32 * h.val + (k + 1)) = step m c ⟨32 * h.val + (k + 1), hN⟩ (accAt m c (32 * h.val + (k + 1) - 1))
        from e, step_apply, show 32 * h.val + (k + 1) - 1 = 32 * h.val + k by omega, ih (by omega),
      Finset.sum_range_succ _ (k + 1)]

end Cert.KernelIdeal.Hand

end
-- ==== Proof.KernelTotal.lean ====
import proofs.«126209_j52080773431332_2_alg».proof.Proof.FrameOf
import proofs.«126209_j52080773431332_2_alg».proof.Proof.OutArray
import proofs.«126209_j52080773431332_2_alg».proof.Proof.KHost
import proofs.«126209_j52080773431332_2_alg».proof.Proof.Regroup
import proofs.«126209_j52080773431332_2_alg».proof.Proof.AccSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.EdgeEnergy

/-! ## The kernel's result is the specification's total

The result is entry (0, 0, 0) plus entry (1, 0, 0) of the partial sums' array: the two halves' final accumulators,
each the sum of its 32 blocks' pixel sums; together the 64 blocks of 64 rows are the image. -/

variable (m : (ℓ : Loc nD τ sig) → Buf (Elt Ideal) ℓ)

/-- The map as launched, -/
abbrev Tm (c : Dev nD) : Img := fun i j => m ((c.tc : Thread nD τ).loc main_arg0) (ix2 i j)
/-- and the guide: the mean of the image's channels. -/
abbrev Gm (c : Dev nD) : Img := chanMean fun i j k => m ((c.tc : Thread nD τ).loc main_arg1) (ix3 i j k)

/-- No host operation writes the map: the region finds it as launched; -/
theorem Timg_eq (c : Dev nD) : Timg m c = Tm m c := by
  funext i j; show V (F := Ideal) m c main_arg0 (ix2 i j) = _; rw [V_arg0]
/-- and it finds the guide at the channel mean the host computed. -/
theorem Gimg_eq (c : Dev nD) : Gimg m c = Gm m c := by
  funext i j; exact V_v2 m c i j

/-- A half's entry of the partial sums is the sum of the half's 32 block sums. -/
theorem half_sum (c : Dev nD) (h : Fin 2) :
    G6 (F := Ideal) m c (ix3 h (0 : Fin 8) (0 : Fin 128)) = ∑ j ∈ Finset.range 32, Bsum (Timg m c) (Gimg m c) (32 * h.val + j) := by
  have e : (fun a : Fin 2 => (ix3 h (0 : Fin 8) (0 : Fin 128)) a.succ) = ix2 (0 : Fin 8) (0 : Fin 128) := by
    funext a; match a with | ⟨0, _⟩ => rfl | ⟨1, _⟩ => rfl
  show accAt m c (32 * h.val + 31) (fun a : Fin 2 => (ix3 h (0 : Fin 8) (0 : Fin 128)) a.succ) = _
  rw [e]
  exact accAt_sum m c h 31 (by decide) 0 0

/-- The two halves together are the whole image's sum. -/
theorem halves_total (T G : Img) :
    (∑ j ∈ Finset.range 32, Bsum T G (32 * 0 + j)) + (∑ j ∈ Finset.range 32, Bsum T G (32 * 1 + j)) = total T G := by
  have h := regroup (pixel T G) (Bsum T G) (fun gi hg => by unfold Bsum; rw [dif_pos hg]; simp only [zero_add])
  simp only [Nat.mul_zero, Nat.zero_add, Nat.mul_one]
  exact h

/-- THE RESULT: after the host's last operations the scalar result is the specification's total of the map and the
    guide. -/
theorem kernel_v8 (c : Dev nD) :
    V3 (F := Ideal) m (dats m) c (Proc.devRef .tc main_v8) = fun _ => total (Tm m c) (Gm m c) := by
  have hv : V2 m (dats m) c (Proc.devRef .tc main_v3) = G6 m c := (V2_v3 m (dats m) c).trans (final6 m c)
  show StableHlo.after (hostOps1 (F := Ideal)) (V2 m (dats m) c) (Proc.devRef .tc main_v8) = _
  rw [tail_v8, hv]
  funext x
  show G6 m c (ix3 (0 : Fin 2) (0 : Fin 8) (0 : Fin 128)) + G6 m c (ix3 (1 : Fin 2) (0 : Fin 8) (0 : Fin 128)) = _
  rw [half_sum m c 0, half_sum m c 1, Timg_eq, Gimg_eq]
  exact halves_total (Tm m c) (Gm m c)

/-- THE RUN at the ideal instance: every weakly fair execution of @main terminates, nothing faulting, with the result at
    the specification's total and both arguments unchanged. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v8) = (fun _ => total (Tm m c) (Gm m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_v8 rfl)).trans (kernel_v8 m c),
      (h c _ (mem_uc main_arg0 rfl)).trans (kept0 m c), (h c _ (mem_uc main_arg1 rfl)).trans (kept1 m c)⟩)
    (run_main m ρ (dats m) (fits m))

end Cert.KernelIdeal.Hand

end
-- ==== Proof.RefPad.lean ====
import proofs.«126209_j52080773431332_2_alg».proof.Proof.Gen.ReferenceIdeal.Read
import proofs.«126209_j52080773431332_2_alg».proof.Proof.Spec
import Idealize.ShloMosaic.Lib.KernelVsHost
import Idealize.ShloMosaic.Lib.IdealHost

/-! # An image padded by one on both sides of one axis, read at the two shifted windows

Padding a 4096 × 4096 image with one column on each side and cutting the windows of columns `2 ..` and `0 ..`
gives, at pixel (i, j), the pixel to the right and the pixel to the left, the padding value outside the image;
padding rows likewise gives the pixel above (window of rows `0 ..`) and below (rows `2 ..`). -/

noncomputable section

namespace Cert.ReferenceIdeal.RefValue

open Cert.ReferenceIdeal Cert.ReferenceIdeal.Gen Idealize.ShloMosaic Idealize.ShloMosaic.ValueIdx

variable {α : Type}

/-- Columns padded, read two columns further: the pixel to the right, the padding value past the last column. -/
theorem padCols_right (x : S4096x4096.Idx → α) (v : S_.Idx → α) (i j : Fin 4096) (k : S4096x4098.Idx)
    (hk0 : (k 0).val = i.val) (hk1 : (k 1).val = 2 + j.val) :
    pad S4096x4098 ![0, 1] ![0, 1] ![0, 0] x v pads_S4096x4096_S4096x4098_000_110 h_S_ k
      = if h : j.val + 1 < 4096 then x (ix2 i ⟨j.val + 1, h⟩) else v (Shape.Idx.first h_S_) := by
  by_cases h : j.val + 1 < 4096
  · rw [dif_pos h]
    refine pad_apply_of_inside _ _ _ x v _ _ k (ix2 i ⟨j.val + 1, h⟩) ?_
    intro a
    match a with
    | ⟨0, _⟩ => show (k 0).val = 0 + i.val * (0 + 1); omega
    | ⟨1, _⟩ => show (k 1).val = 1 + (j.val + 1) * (0 + 1); omega
  · rw [dif_neg h]
    refine pad_apply_of_not_inside _ _ _ x v _ _ k (1 : Fin 2) ?_
    intro hin
    have e : ((k 1).val - 1) / 1 < 4096 := hin.2.2
    rw [Nat.div_one] at e
    omega

/-- Columns padded, read at the same column: the pixel to the left, the padding value before the first column. -/
theorem padCols_left (x : S4096x4096.Idx → α) (v : S_.Idx → α) (i j : Fin 4096) (k : S4096x4098.Idx)
    (hk0 : (k 0).val = i.val) (hk1 : (k 1).val = j.val) :
    pad S4096x4098 ![0, 1] ![0, 1] ![0, 0] x v pads_S4096x4096_S4096x4098_000_110 h_S_ k
      = if h : 0 < j.val then x (ix2 i ⟨j.val - 1, by omega⟩) else v (Shape.Idx.first h_S_) := by
  have hj : j.val < 4096 := j.isLt
  by_cases h : 0 < j.val
  · rw [dif_pos h]
    refine pad_apply_of_inside _ _ _ x v _ _ k (ix2 i ⟨j.val - 1, by omega⟩) ?_
    intro a
    match a with
    | ⟨0, _⟩ => show (k 0).val = 0 + i.val * (0 + 1); omega
    | ⟨1, _⟩ => show (k 1).val = 1 + (j.val - 1) * (0 + 1); omega
  · rw [dif_neg h]
    refine pad_apply_of_not_inside _ _ _ x v _ _ k (1 : Fin 2) ?_
    intro hin
    have e : 1 ≤ (k 1).val := hin.1
    omega

/-- Rows padded, read at the same row: the pixel above, the padding value above the first row. -/
theorem padRows_up (x : S4096x4096.Idx → α) (v : S_.Idx → α) (i j : Fin 4096) (k : S4098x4096.Idx)
    (hk0 : (k 0).val = i.val) (hk1 : (k 1).val = j.val) :
    pad S4098x4096 ![1, 0] ![1, 0] ![0, 0] x v pads_S4096x4096_S4098x4096_110_000 h_S_ k
      = if h : 0 < i.val then x (ix2 ⟨i.val - 1, by omega⟩ j) else v (Shape.Idx.first h_S_) := by
  have hi : i.val < 4096 := i.isLt
  by_cases h : 0 < i.val
  · rw [dif_pos h]
    refine pad_apply_of_inside _ _ _ x v _ _ k (ix2 ⟨i.val - 1, by omega⟩ j) ?_
    intro a
    match a with
    | ⟨0, _⟩ => show (k 0).val = 1 + (i.val - 1) * (0 + 1); omega
    | ⟨1, _⟩ => show (k 1).val = 0 + j.val * (0 + 1); omega
  · rw [dif_neg h]
    refine pad_apply_of_not_inside _ _ _ x v _ _ k (0 : Fin 2) ?_
    intro hin
    have e : 1 ≤ (k 0).val := hin.1
    omega

/-- Rows padded, read two rows further: the pixel below, the padding value below the last row. -/
theorem padRows_down (x : S4096x4096.Idx → α) (v : S_.Idx → α) (i j : Fin 4096) (k : S4098x4096.Idx)
    (hk0 : (k 0).val = 2 + i.val) (hk1 : (k 1).val = j.val) :
    pad S4098x4096 ![1, 0] ![1, 0] ![0, 0] x v pads_S4096x4096_S4098x4096_110_000 h_S_ k
      = if h : i.val + 1 < 4096 then x (ix2 ⟨i.val + 1, h⟩ j) else v (Shape.Idx.first h_S_) := by
  by_cases h : i.val + 1 < 4096
  · rw [dif_pos h]
    refine pad_apply_of_inside _ _ _ x v _ _ k (ix2 ⟨i.val + 1, h⟩ j) ?_
    intro a
    match a with
    | ⟨0, _⟩ => show (k 0).val = 1 + (i.val + 1) * (0 + 1); omega
    | ⟨1, _⟩ => show (k 1).val = 0 + j.val * (0 + 1); omega
  · rw [dif_neg h]
    refine pad_apply_of_not_inside _ _ _ x v _ _ k (0 : Fin 2) ?_
    intro hin
    have e : ((k 0).val - 1) / 1 < 4096 := hin.2.2
    rw [Nat.div_one] at e
    omega

end Cert.ReferenceIdeal.RefValue

end
-- ==== Proof.RefGrad.lean ====
import proofs.«126209_j52080773431332_2_alg».proof.Proof.RefPad

/-! # The reference's two gradient stages are the specification's

The reference takes the squared gradient norm twice: of the logarithm of the clamped map, and of the channel mean.
Each time it pads the image by a zero column (row) on both sides, subtracts two shifted windows, squares and adds.
Read at a pixel that is the specification's `gradSq` of the image the stage holds. -/

noncomputable section

namespace Cert.ReferenceIdeal.RefValue

open Cert.ReferenceIdeal Cert.ReferenceIdeal.Gen Cert.ReferenceIdeal.Read Idealize.ShloMosaic Idealize.ShloMosaic.ValueIdx
open Cert.EdgeEnergy

/-- The image a 4096 × 4096 stage holds. -/
def img (X : S4096x4096.Idx → EReal) : Img := fun i j => X (ix2 i j)

theorem img_apply (X : S4096x4096.Idx → EReal) (i j : Fin 4096) : img X i j = X (ix2 i j) := rfl

/-- A 4096 × 4096 stage of extended reals, -/
abbrev C2 : Type := (⟨S4096x4096, .f32⟩ : BufTy).Contents (Elt Ideal)
/-- and a three-channel one. -/
abbrev C3 : Type := (⟨S4096x4096x3, .f32⟩ : BufTy).Contents (Elt Ideal)

/-- The integer 0 converted is the padding value 0 (four times, once per padding). -/
theorem padValue1 : val_main_call1_v0 (F := Ideal) (Shape.Idx.first h_S_) = 0 := sitofp_zero (φ := .f32)
theorem padValue2 : val_main_call2_v0 (F := Ideal) (Shape.Idx.first h_S_) = 0 := sitofp_zero (φ := .f32)
theorem padValue3 : val_main_call3_v0 (F := Ideal) (Shape.Idx.first h_S_) = 0 := sitofp_zero (φ := .f32)
theorem padValue4 : val_main_call4_v0 (F := Ideal) (Shape.Idx.first h_S_) = 0 := sitofp_zero (φ := .f32)

section Generic
variable (X : S4096x4096.Idx → EReal) (v : S_.Idx → EReal) (hv : v (Shape.Idx.first h_S_) = 0) (i j : Fin 4096)
include hv

/-- With zero as the padding value, the window two columns further is the specification's right neighbour, -/
theorem right_of_pad (k : S4096x4098.Idx) (hk0 : (k 0).val = i.val) (hk1 : (k 1).val = 2 + j.val) :
    pad S4096x4098 ![0, 1] ![0, 1] ![0, 0] X v pads_S4096x4096_S4096x4098_000_110 h_S_ k = right (img X) i j := by
  rw [padCols_right X v i j k hk0 hk1, hv]; rfl

/-- the window at the same column its left neighbour, -/
theorem left_of_pad (k : S4096x4098.Idx) (hk0 : (k 0).val = i.val) (hk1 : (k 1).val = j.val) :
    pad S4096x4098 ![0, 1] ![0, 1] ![0, 0] X v pads_S4096x4096_S4096x4098_000_110 h_S_ k = left (img X) i j := by
  rw [padCols_left X v i j k hk0 hk1, hv]; rfl

/-- the window at the same row the neighbour above, -/
theorem up_of_pad (k : S4098x4096.Idx) (hk0 : (k 0).val = i.val) (hk1 : (k 1).val = j.val) :
    pad S4098x4096 ![1, 0] ![1, 0] ![0, 0] X v pads_S4096x4096_S4098x4096_110_000 h_S_ k = up (img X) i j := by
  rw [padRows_up X v i j k hk0 hk1, hv]; rfl

/-- and the window two rows further the neighbour below. -/
theorem down_of_pad (k : S4098x4096.Idx) (hk0 : (k 0).val = 2 + i.val) (hk1 : (k 1).val = j.val) :
    pad S4098x4096 ![1, 0] ![1, 0] ![0, 0] X v pads_S4096x4096_S4098x4096_110_000 h_S_ k = down (img X) i j := by
  rw [padRows_down X v i j k hk0 hk1, hv]; rfl

end Generic

/-! ## The first gradient: of the logarithm of the clamped map -/

theorem v3_apply (x0 : C2) (i j : Fin 4096) :
    val_main_v3 (F := Ideal) x0 (ix2 i j) = right (img (val_main_v1 (F := Ideal) x0)) i j :=
  (val_main_v3_apply x0 _).trans (right_of_pad _ _ padValue1 i j _ rfl rfl)

theorem v4_apply (x0 : C2) (i j : Fin 4096) :
    val_main_v4 (F := Ideal) x0 (ix2 i j) = left (img (val_main_v1 (F := Ideal) x0)) i j :=
  (val_main_v4_apply x0 _).trans (left_of_pad _ _ padValue1 i j _ rfl rfl)

theorem v7_apply (x0 : C2) (i j : Fin 4096) :
    val_main_v7 (F := Ideal) x0 (ix2 i j) = up (img (val_main_v1 (F := Ideal) x0)) i j :=
  (val_main_v7_apply x0 _).trans (up_of_pad _ _ padValue2 i j _ rfl rfl)

theorem v8_apply (x0 : C2) (i j : Fin 4096) :
    val_main_v8 (F := Ideal) x0 (ix2 i j) = down (img (val_main_v1 (F := Ideal) x0)) i j :=
  (val_main_v8_apply x0 _).trans (down_of_pad _ _ padValue2 i j _ rfl rfl)

/-- The sum of the two squared differences is the squared gradient norm of the logarithm stage. -/
theorem v12_apply (x0 : C2) (i j : Fin 4096) :
    val_main_v12 (F := Ideal) x0 (ix2 i j) = gradSq (img (val_main_v1 (F := Ideal) x0)) i j := by
  rw [val_main_v12_apply, val_main_v10_apply, val_main_v11_apply, val_main_v5_apply, val_main_v9_apply,
    v3_apply, v4_apply, v7_apply, v8_apply]
  rfl

/-! ## The second gradient: of the channel mean -/

theorem v17_apply (x1 : C3) (i j : Fin 4096) :
    val_main_v17 (F := Ideal) x1 (ix2 i j) = right (img (val_main_v15 (F := Ideal) x1)) i j :=
  (val_main_v17_apply x1 _).trans (right_of_pad _ _ padValue3 i j _ rfl rfl)

theorem v18_apply (x1 : C3) (i j : Fin 4096) :
    val_main_v18 (F := Ideal) x1 (ix2 i j) = left (img (val_main_v15 (F := Ideal) x1)) i j :=
  (val_main_v18_apply x1 _).trans (left_of_pad _ _ padValue3 i j _ rfl rfl)

theorem v21_apply (x1 : C3) (i j : Fin 4096) :
    val_main_v21 (F := Ideal) x1 (ix2 i j) = up (img (val_main_v15 (F := Ideal) x1)) i j :=
  (val_main_v21_apply x1 _).trans (up_of_pad _ _ padValue4 i j _ rfl rfl)

theorem v22_apply (x1 : C3) (i j : Fin 4096) :
    val_main_v22 (F := Ideal) x1 (ix2 i j) = down (img (val_main_v15 (F := Ideal) x1)) i j :=
  (val_main_v22_apply x1 _).trans (down_of_pad _ _ padValue4 i j _ rfl rfl)

/-- The sum of the two squared differences is the squared gradient norm of the channel-mean stage. -/
theorem v26_apply (x1 : C3) (i j : Fin 4096) :
    val_main_v26 (F := Ideal) x1 (ix2 i j) = gradSq (img (val_main_v15 (F := Ideal) x1)) i j := by
  rw [val_main_v26_apply, val_main_v24_apply, val_main_v25_apply, val_main_v19_apply, val_main_v23_apply,
    v17_apply, v18_apply, v21_apply, v22_apply]
  rfl

end Cert.ReferenceIdeal.RefValue

end
-- ==== Proof.RefWeight.lean ====
import proofs.«126209_j52080773431332_2_alg».proof.Proof.RefGrad

/-! # The images the two gradients are taken of, the weight, and one pixel's term

The first stage is the logarithm of the map clamped to [eps, 1]; the second the mean of the three channels, their
sum from zero over 3. The weight stage spells the logistic function as `1 / (1 + exp (−x))`, which is its definition
over the extended reals. -/

noncomputable section

namespace Cert.ReferenceIdeal.RefValue

open Cert.ReferenceIdeal Cert.ReferenceIdeal.Gen Cert.ReferenceIdeal.Read Idealize.ShloMosaic Idealize.ShloMosaic.ValueIdx
open Cert.EdgeEnergy

/-- The logarithm stage holds the specification's `logClip` of the map. -/
theorem v1_img (x0 : C2) : img (val_main_v1 (F := Ideal) x0) = logClip (img x0) := by
  funext i j
  rw [img_apply, val_main_v1_apply, val_main_v0_apply, val_main_call0_v4_apply, val_main_call0_v2_apply,
    val_main_call0_v1_apply]
  rfl

/-- The channel-mean stage holds the specification's `chanMean` of the three-channel image. -/
theorem v15_img (x1 : C3) : img (val_main_v15 (F := Ideal) x1) = chanMean fun i j k => x1 (ix3 i j k) := by
  funext i j
  have h0 : val_main_cst_2 (F := Ideal) (Shape.Idx.first h_S_) = 0 := Ideal.ofBits_zero_f32
  have hidx : ∀ k : Fin 3, idx_main_v13 (ix2 i j) k = ix3 i j k := fun k => funext fun a => by
    match a with
    | ⟨0, _⟩ => rfl
    | ⟨1, _⟩ => rfl
    | ⟨2, _⟩ => rfl
  rw [img_apply, val_main_v15_apply, val_main_v13_apply, val_main_v14_apply, h0]
  simp only [hidx]
  rfl

/-- The constant 1 of the weight's numerator, -/
theorem one9 (i : S_.Idx) : val_main_cst_9 (F := Ideal) i = 1 := Ideal.ofBits_one_f32
/-- and of its denominator. -/
theorem one8 (i : S_.Idx) : val_main_cst_8 (F := Ideal) i = 1 := Ideal.ofBits_one_f32

/-- The weight stage is the specification's weight of the channel-mean stage: `1 / (1 + exp (−x))` is the logistic
    function of `x = (0.1 − |∇G|) · 48`. -/
theorem v37_apply (x1 : C3) (i j : Fin 4096) :
    val_main_v37 (F := Ideal) x1 (ix2 i j) = weight (img (val_main_v15 (F := Ideal) x1)) i j := by
  rw [val_main_v37_apply, val_main_v36_apply, val_main_v35_apply, val_main_v34_apply, val_main_v33_apply,
    val_main_v32_apply, val_main_v31_apply, val_main_v30_apply, val_main_v29_apply, val_main_v28_apply,
    val_main_v27_apply, v26_apply, one9, one8]
  rfl

/-- One pixel of the product stage is the specification's term at that pixel. -/
theorem v38_apply (x0 : C2) (x1 : C3) (i j : Fin 4096) :
    val_main_v38 (F := Ideal) x0 x1 (ix2 i j) = pixel (img x0) (chanMean fun i j k => x1 (ix3 i j k)) i j := by
  rw [val_main_v38_apply, v12_apply, v37_apply, v1_img, v15_img]
  rfl

end Cert.ReferenceIdeal.RefValue

end
-- ==== Proof.RefTotal.lean ====
import proofs.«126209_j52080773431332_2_alg».proof.Proof.RefWeight

/-! # The reference's result is the specification's total

The last operation adds every pixel of the product stage to zero. A sum over the index set of a 4096 × 4096 array is
the double sum over rows and columns, and each term is the specification's pixel term. -/

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem
open Cert.EdgeEnergy

/-- The result stage, as a function of the two argument arrays, is the specification's total. -/
theorem v39_total (x0 : C2) (x1 : C3) (i : S_.Idx) :
    val_main_v39 (F := Ideal) x0 x1 i
      = total (fun i j => x0 (ix2 i j)) (chanMean fun i j k => x1 (ix3 i j k)) := by
  have h0 : val_main_cst_10 (F := Ideal) (Shape.Idx.first h_S_) = 0 := Ideal.ofBits_zero_f32
  rw [val_main_v39_apply, h0, zero_add, sum_idx2]
  exact Finset.sum_congr rfl fun a _ => Finset.sum_congr rfl fun b _ => v38_apply x0 x1 a b

/-- Every execution's result is the specification's total of the two arguments. -/
theorem res_eq_total (m : (ℓ : Loc nD τ sig) → Buf (Elt Ideal) ℓ) (c : Dev nD) :
    Cert.ReferenceIdeal.Value.res_main_v39 (F := Ideal) m c
      = fun _ => Cert.EdgeEnergy.total (fun i j => m ((c.tc : Thread nD τ).loc main_arg0) (ValueIdx.ix2 i j))
          (Cert.EdgeEnergy.chanMean fun i j k => m ((c.tc : Thread nD τ).loc main_arg1) (ValueIdx.ix3 i j k)) := by
  rw [val_main_v39_eq]
  funext i
  exact v39_total _ _ i

end Cert.ReferenceIdeal.RefValue

end
-- ==== Proof.lean ====
/-
  The certificate of an edge-aware gradient energy: for a transmission map `T` and an image `L` of three channels, both
  4096 × 4096,

      ∑ over pixels of  |∇ log clip(T)|² · σ((0.1 − |∇ mean(L)|) · 48),

  `clip` the clamp to [1e-7, 1], `∇` the central difference with zero outside the image, `σ` the logistic function
  (Proof/Spec.lean states it over the extended reals). The kernel walks the image in 64 blocks of 64 rows, two halves of
  32 steps, each step reading its block and the two 8-row blocks that hold the row above and the row below it (the same
  array through three windows), adding the block's pixel sum to an accumulator it zeroes at a half's first step and
  copies out at its last; the host adds the two halves. The reference pads, slices and sums the whole image at once.
  At the ideal instance both are that sum: only the commutativity and associativity of the extended reals' addition are
  used, so the precondition is never opened.

  * the frames of the two kernel programs: Proof/FrameOf.lean (and its word-level twin), over the run of @main segment
    by segment (Proof/RegionRun.lean), the proof data (Proof/Data.lean) and the body's three control cases
    (Proof/BodyRun.lean, Proof/Oblig.lean);
  * the kernel's value: Proof/OutArray.lean (the two written blocks are the two halves' accumulators), Proof/AccSum.lean
    (an accumulator is the sum of its half's block sums), Proof/PointValue.lean (a block sum is 64 rows of the
    specification's pixels), Proof/Regroup.lean (64 blocks of 64 rows are the image), Proof/KernelTotal.lean;
  * the reference's value: Proof/RefTotal.lean over the generated run and its read-at-an-index lemmas.
-/
import proofs.«126209_j52080773431332_2_alg».proof.Defs
import proofs.«126209_j52080773431332_2_alg».proof.Proof.Gen.Kernel
import proofs.«126209_j52080773431332_2_alg».proof.Proof.Gen.KernelIdeal
import proofs.«126209_j52080773431332_2_alg».proof.Proof.Gen.ReferenceIdeal
import proofs.«126209_j52080773431332_2_alg».proof.Proof.Gen.Pre_finite_inputs
import proofs.«126209_j52080773431332_2_alg».proof.Proof.Gen.ReferenceIdeal.Run
import proofs.«126209_j52080773431332_2_alg».proof.Proof.Gen.ReferenceIdeal.Read
import proofs.«126209_j52080773431332_2_alg».proof.Proof.FrameOfK
import proofs.«126209_j52080773431332_2_alg».proof.Proof.KernelTotal
import proofs.«126209_j52080773431332_2_alg».proof.Proof.RefTotal

noncomputable section

namespace Cert.Proof

open Idealize.ShloMosaic Idealize.SL.Sem

/-- The word-level kernel program runs to its end and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the specification's total of the map and the
    channel mean. -/
theorem algebraic : Cert.algebraic_KernelIdeal_ReferenceIdeal := by
  intro m ρ m' ρ' _ hagree
  refine ⟨fun c => (fun _ => Cert.EdgeEnergy.total (Cert.KernelIdeal.Hand.Tm m c) (Cert.KernelIdeal.Hand.Gm m c)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq_total, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
